-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : IVec S8x512x512 32) (main_arg2 : IVec S8x512x512 1) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S8x512x512 : Shape := ⟨3, ![8, 512, 512]⟩
abbrev S1x19x64x512 : Shape := ⟨4, ![1, 19, 64, 512]⟩
abbrev S1x64x512 : Shape := ⟨3, ![1, 64, 512]⟩
abbrev S19x64x512 : Shape := ⟨3, ![19, 64, 512]⟩
abbrev S64x512 : Shape := ⟨2, ![64, 512]⟩
abbrev S39845888 : Shape := ⟨1, ![39845888]⟩
abbrev S_ : Shape := ⟨0, ![]⟩
abbrev S101 : Shape := ⟨1, ![101]⟩
abbrev S39845888x1 : Shape := ⟨2, ![39845888, 1]⟩
abbrev S100 : Shape := ⟨1, ![100]⟩

abbrev nBuf : Space → Nat
  | .hbm => 53
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512, .i1⟩
  | .hbm, ⟨3, _⟩ => ⟨S8x512x512, .i32⟩
  | .hbm, ⟨4, _⟩ => ⟨S8x19x512x512, .i32⟩
  | .hbm, ⟨5, _⟩ => ⟨S8x19x512x512, .f32⟩
  | .hbm, ⟨6, _⟩ => ⟨S39845888, .i32⟩
  | .hbm, ⟨7, _⟩ => ⟨S39845888, .f32⟩
  | .hbm, ⟨8, _⟩ => ⟨S_, .f32⟩
  | .hbm, ⟨9, _⟩ => ⟨S101, .f32⟩
  | .hbm, ⟨10, _⟩ => ⟨S_, .i32⟩
  | .hbm, ⟨11, _⟩ => ⟨S39845888, .i32⟩
  | .hbm, ⟨12, _⟩ => ⟨S39845888, .i1⟩
  | .hbm, ⟨13, _⟩ => ⟨S_, .i32⟩
  | .hbm, ⟨14, _⟩ => ⟨S39845888, .i32⟩
  | .hbm, ⟨15, _⟩ => ⟨S39845888, .i32⟩
  | .hbm, ⟨16, _⟩ => ⟨S39845888, .i32⟩
  | .hbm, ⟨17, _⟩ => ⟨S39845888x1, .i32⟩
  | .hbm, ⟨18, _⟩ => ⟨S_, .f32⟩
  | .hbm, ⟨19, _⟩ => ⟨S39845888, .f32⟩
  | .hbm, ⟨20, _⟩ => ⟨S101, .f32⟩
  | .hbm, ⟨21, _⟩ => ⟨S_, .f32⟩
  | .hbm, ⟨22, _⟩ => ⟨S101, .f32⟩
  | .hbm, ⟨23, _⟩ => ⟨S_, .i32⟩
  | .hbm, ⟨24, _⟩ => ⟨S39845888, .i32⟩
  | .hbm, ⟨25, _⟩ => ⟨S39845888, .i1⟩
  | .hbm, ⟨26, _⟩ => ⟨S_, .i32⟩
  | .hbm, ⟨27, _⟩ => ⟨S39845888, .i32⟩
  | .hbm, ⟨28, _⟩ => ⟨S39845888, .i32⟩
  | .hbm, ⟨29, _⟩ => ⟨S39845888, .i32⟩
  | .hbm, ⟨30, _⟩ => ⟨S39845888x1, .i32⟩
  | .hbm, ⟨31, _⟩ => ⟨S101, .f32⟩
  | .hbm, ⟨32, _⟩ => ⟨S100, .f32⟩
  | .hbm, ⟨33, _⟩ => ⟨S100, .f32⟩
  | .hbm, ⟨34, _⟩ => ⟨S_, .f32⟩
  | .hbm, ⟨35, _⟩ => ⟨S100, .f32⟩
  | .hbm, ⟨36, _⟩ => ⟨S100, .i1⟩
  | .hbm, ⟨37, _⟩ => ⟨S100, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S100, .f32⟩
  | .hbm, ⟨43, _⟩ => ⟨S100, .f32⟩
  | .hbm, ⟨44, _⟩ => ⟨S100, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x19x64x512, .f32⟩
  | .local _ .vmem, ⟨1, _⟩ => ⟨S1x19x64x512, .f32⟩
  | .local _ .vmem, ⟨2, _⟩ => ⟨S1x64x512, .i32⟩
  | .local _ .vmem, ⟨3, _⟩ => ⟨S1x64x512, .i32⟩
  | .local _ .vmem, ⟨4, _⟩ => ⟨S1x64x512, .i32⟩
  | .local _ .vmem, ⟨5, _⟩ => ⟨S1x64x512, .i32⟩
  | .local _ .vmem, ⟨6, _⟩ => ⟨S1x19x64x512, .i32⟩
  | .local _ .vmem, ⟨7, _⟩ => ⟨S1x19x64x512, .i32⟩
  | .local _ .vmem, ⟨8, _⟩ => ⟨S1x19x64x512, .f32⟩
  | .local _ .vmem, ⟨9, _⟩ => ⟨S1x19x64x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x19x64x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x19x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  inb_S1x19x64x512_S1x19x64x512_0_0_0_0 : ∀ a, (![0, 0, 0, 0] : Fin 4 → Nat) a + S1x19x64x512.size a ≤ S1x19x64x512.size a
  h_S1x19x64x512 : 0 < S1x19x64x512.numel
  shapeCasts_S1x19x64x512_S19x64x512 : S1x19x64x512.ShapeCasts S19x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  iota_S19x64x512_d0_w32 : S19x64x512.Iotas .tc 32 [0]
  shapeCasts_S64x512_S1x64x512 : S64x512.ShapeCasts S1x64x512
  shapeCasts_S1x64x512_S1x64x512 : S1x64x512.ShapeCasts S1x64x512
  broadcasts_S1x64x512_S19x64x512 : S1x64x512.Broadcasts S19x64x512
  shapeCasts_S19x64x512_S1x19x64x512 : S19x64x512.ShapeCasts S1x19x64x512
  shapeCasts_S8x19x512x512_S39845888 : S8x19x512x512.ShapeCasts S39845888
  bcast_S_S101 : S_.BroadcastsInDim S101 (![] : Fin 0 → Fin S101.rank)
  bcast_S_S39845888 : S_.BroadcastsInDim S39845888 (![] : Fin 0 → Fin S39845888.rank)
  bcast_S39845888_S39845888x1_0 : S39845888.BroadcastsInDim S39845888x1 (![0] : Fin 1 → Fin S39845888x1.rank)
  slices_S101_S100_0 : S101.Slices ![0] S100
  bcast_S_S100 : S_.BroadcastsInDim S100 (![] : Fin 0 → Fin S100.rank)
  reducesTo_S100_S_d0 : S100.ReducesTo [0] S_
  h_S_ : 0 < S_.numel
  scatter_S101_S39845888x1_S39845888_n_0_0_1_wf : ScatterDims.WF S101 S39845888x1 S39845888 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x64x512.size a ≤ S8x19x512x512.size a
  hwx0_0 : ∀ i : grid0.Coords, EltTy.bits .f32 = 32 ∨ (Rect.block (s := S8x19x512x512) S1x19x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x512x512.size a
  hwx0_1 : ∀ i : grid0.Coords, EltTy.bits .i32 = 32 ∨ (Rect.block (s := S8x512x512) S1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S8x512x512.size a
  hwx0_2 : ∀ i : grid0.Coords, EltTy.bits .i32 = 32 ∨ (Rect.block (s := S8x512x512) S1x64x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x64x512.size a ≤ S8x19x512x512.size a
  hwx0_3 : ∀ i : grid0.Coords, EltTy.bits .i32 = 32 ∨ (Rect.block (s := S8x19x512x512) S1x19x64x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x64x512.size a ≤ S8x19x512x512.size a
  hwx0_4 : ∀ i : grid0.Coords, EltTy.bits .f32 = 32 ∨ (Rect.block (s := S8x19x512x512) S1x19x64x512.size (cc0_transform_4 i) (hinb0_4 i)).WholeWords (EltTy.packing .f32)

variable [Facts₀]

def scatter_S101_S39845888x1_S39845888_n_0_0_1 : ScatterDims S101 S39845888x1 S39845888 where
  updateWindowDims := []
  insertedWindowDims := [0]
  scatterDimsToOperandDims := [0]
  indexVectorDim := 1
  wf := scatter_S101_S39845888x1_S39845888_n_0_0_1_wf

abbrev win0_0 : Pipeline.Window sig grid0 :=
  Pipeline.Window.ofSpec (Memref.whole main_arg0) S1x19x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x19x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x19x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x512x512x1 : Shape := ⟨4, ![8, 512, 512, 1]⟩
abbrev S1x1x1x19 : Shape := ⟨4, ![1, 1, 1, 19]⟩
abbrev S8x512x512x19 : Shape := ⟨4, ![8, 512, 512, 19]⟩
abbrev S100 : Shape := ⟨1, ![100]⟩
abbrev S39845888 : Shape := ⟨1, ![39845888]⟩
abbrev S39845888x1 : Shape := ⟨2, ![39845888, 1]⟩
abbrev S8x512x512x19x1 : Shape := ⟨5, ![8, 512, 512, 19, 1]⟩

abbrev nBuf : Space → Nat
  | .hbm => 103
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512, .i1⟩
  | .hbm, ⟨3, _⟩ => ⟨S_, .i32⟩
  | .hbm, ⟨4, _⟩ => ⟨S_, .i32⟩
  | .hbm, ⟨5, _⟩ => ⟨S8x512x512, .i32⟩
  | .hbm, ⟨6, _⟩ => ⟨S8x512x512, .i32⟩
  | .hbm, ⟨7, _⟩ => ⟨S8x512x512x1, .i32⟩
  | .hbm, ⟨8, _⟩ => ⟨S1x1x1x19, .i32⟩
  | .hbm, ⟨9, _⟩ => ⟨S8x512x512x19, .i32⟩
  | .hbm, ⟨10, _⟩ => ⟨S8x512x512x19, .i32⟩
  | .hbm, ⟨11, _⟩ => ⟨S8x512x512x19, .i1⟩
  | .hbm, ⟨12, _⟩ => ⟨S8x512x512x19, .f32⟩
  | .hbm, ⟨13, _⟩ => ⟨S8x512x512x1, .i1⟩
  | .hbm, ⟨14, _⟩ => ⟨S8x512x512x19, .i1⟩
  | .hbm, ⟨15, _⟩ => ⟨S8x512x512x19, .f32⟩
  | .hbm, ⟨16, _⟩ => ⟨S8x512x512x19, .f32⟩
  | .hbm, ⟨17, _⟩ => ⟨S8x512x512x19, .f32⟩
  | .hbm, ⟨18, _⟩ => ⟨S_, .f32⟩
  | .hbm, ⟨19, _⟩ => ⟨S8x512x512x19, .f32⟩
  | .hbm, ⟨20, _⟩ => ⟨S8x512x512x19, .f32⟩
  | .hbm, ⟨21, _⟩ => ⟨S_, .f32⟩
  | .hbm, ⟨22, _⟩ => ⟨S8x512x512x19, .f32⟩
  | .hbm, ⟨23, _⟩ => ⟨S8x512x512x19, .f32⟩
  | .hbm, ⟨24, _⟩ => ⟨S8x512x512x19, .f32⟩
  | .hbm, ⟨25, _⟩ => ⟨S8x512x512x19, .f32⟩
  | .hbm, ⟨26, _⟩ => ⟨S8x512x512x19, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x512x512x19, .f32⟩
  | .hbm, ⟨33, _⟩ => ⟨S8x512x512x19, .f32⟩
  | .hbm, ⟨34, _⟩ => ⟨S8x512x512x19, .f32⟩
  | .hbm, ⟨35, _⟩ => ⟨S8x512x512x19, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S8x512x512x19, .i32⟩
  | .hbm, ⟨40, _⟩ => ⟨S8x512x512x19, .i32⟩
  | .hbm, ⟨41, _⟩ => ⟨S_, .i32⟩
  | .hbm, ⟨42, _⟩ => ⟨S8x512x512x19, .i32⟩
  | .hbm, ⟨43, _⟩ => ⟨S8x512x512x19, .i32⟩
  | .hbm, ⟨44, _⟩ => ⟨S_, .f32⟩
  | .hbm, ⟨45, _⟩ => ⟨S100, .f32⟩
  | .hbm, ⟨46, _⟩ => ⟨S39845888, .i32⟩
  | .hbm, ⟨47, _⟩ => ⟨S39845888, .f32⟩
  | .hbm, ⟨48, _⟩ => ⟨S_, .i32⟩
  | .hbm, ⟨49, _⟩ => ⟨S39845888, .i32⟩
  | .hbm, ⟨50, _⟩ => ⟨S39845888, .i1⟩
  | .hbm, ⟨51, _⟩ => ⟨S_, .i32⟩
  | .hbm, ⟨52, _⟩ => ⟨S39845888, .i32⟩
  | .hbm, ⟨53, _⟩ => ⟨S39845888, .i32⟩
  | .hbm, ⟨54, _⟩ => ⟨S39845888, .i32⟩
  | .hbm, ⟨55, _⟩ => ⟨S39845888x1, .i32⟩
  | .hbm, ⟨56, _⟩ => ⟨S100, .f32⟩
  | .hbm, ⟨57, _⟩ => ⟨S_, .f32⟩
  | .hbm, ⟨58, _⟩ => ⟨S100, .f32⟩
  | .hbm, ⟨59, _⟩ => ⟨S100, .i1⟩
  | .hbm, ⟨60, _⟩ => ⟨S100, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .i32⟩
  | .hbm, ⟨65, _⟩ => ⟨S8x512x512x19, .i32⟩
  | .hbm, ⟨66, _⟩ => ⟨S8x512x512x19, .i1⟩
  | .hbm, ⟨67, _⟩ => ⟨S_, .i32⟩
  | .hbm, ⟨68, _⟩ => ⟨S8x512x512x19, .i32⟩
  | .hbm, ⟨69, _⟩ => ⟨S8x512x512x19, .i32⟩
  | .hbm, ⟨70, _⟩ => ⟨S8x512x512x19, .i32⟩
  | .hbm, ⟨71, _⟩ => ⟨S8x512x512x19x1, .i32⟩
  | .hbm, ⟨72, _⟩ => ⟨S8x512x512x19, .f32⟩
  | .hbm, ⟨73, _⟩ => ⟨S_, .f32⟩
  | .hbm, ⟨74, _⟩ => ⟨S8x512x512x19, .f32⟩
  | .hbm, ⟨75, _⟩ => ⟨S8x512x512x19, .f32⟩
  | .hbm, ⟨76, _⟩ => ⟨S8x512x512x19, .f32⟩
  | .hbm, ⟨77, _⟩ => ⟨S8x512x512x19, .f32⟩
  | .hbm, ⟨78, _⟩ => ⟨S_, .f32⟩
  | .hbm, ⟨79, _⟩ => ⟨S_, .f32⟩
  | .hbm, ⟨80, _⟩ => ⟨S8x512x512x19, .f32⟩
  | .hbm, ⟨81, _⟩ => ⟨S8x512x512x19, .f32⟩
  | .hbm, ⟨82, _⟩ => ⟨S_, .f32⟩
  | .hbm, ⟨83, _⟩ => ⟨S_, .i1⟩
  | .hbm, ⟨84, _⟩ => ⟨S8x512x512x19, .f32⟩
  | .hbm, ⟨85, _⟩ => ⟨S8x512x512x19, .f32⟩
  | .hbm, ⟨86, _⟩ => ⟨S8x512x512x19, .f32⟩
  | .hbm, ⟨87, _⟩ => ⟨S_, .f32⟩
  | .hbm, ⟨88, _⟩ => ⟨S8x512x512x19, .f32⟩
  | .hbm, ⟨89, _⟩ => ⟨S8x512x512x19, .f32⟩
  | .hbm, ⟨90, _⟩ => ⟨S8x512x512x19, .f32⟩
  | .hbm, ⟨91, _⟩ => ⟨S8x512x512x19, .f32⟩
  | .hbm, ⟨92, _⟩ => ⟨S8x512x512x19, .f32⟩
  | .hbm, ⟨93, _⟩ => ⟨S8x512x512x19, .f32⟩
  | .hbm, ⟨94, _⟩ => ⟨S8x512x512x19, .f32⟩
  | .hbm, ⟨95, _⟩ => ⟨S8x512x512x19, .f32⟩
  | .hbm, ⟨96, _⟩ => ⟨S8x512x512x19, .f32⟩
  | .hbm, ⟨97, _⟩ => ⟨S8x512x512x19, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_c_5 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_7 : Ref sig .tc := ⟨.hbm, 48, rfl⟩
abbrev main_v24 : Ref sig .tc := ⟨.hbm, 49, rfl⟩
abbrev main_v25 : Ref sig .tc := ⟨.hbm, 50, rfl⟩
abbrev main_c_8 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_v36 : Ref sig .tc := ⟨.hbm, 65, rfl⟩
abbrev main_v37 : Ref sig .tc := ⟨.hbm, 66, rfl⟩
abbrev main_c_12 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_17 : Ref sig .tc := ⟨.hbm, 98, rfl⟩
abbrev main_v62 : Ref sig .tc := ⟨.hbm, 99, rfl⟩
abbrev main_v63 : Ref sig .tc := ⟨.hbm, 100, rfl⟩
abbrev main_cst_18 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  bcast_S8x512x512x1_S8x512x512x19_0_1_2_3 : S8x512x512x1.BroadcastsInDim S8x512x512x19 (![0, 1, 2, 3] : Fin 4 → Fin S8x512x512x19.rank)
  bcast_S1x1x1x19_S8x512x512x19_0_1_2_3 : S1x1x1x19.BroadcastsInDim S8x512x512x19 (![0, 1, 2, 3] : Fin 4 → Fin S8x512x512x19.rank)
  transposes_S8x19x512x512_S8x512x512x19_0_2_3_1 : S8x19x512x512.Transposes [0, 2, 3, 1] S8x512x512x19
  bcast_S_S8x512x512x19 : S_.BroadcastsInDim S8x512x512x19 (![] : Fin 0 → Fin S8x512x512x19.rank)
  reducesTo_S8x512x512x19_S_d0_1_2_3 : S8x512x512x19.ReducesTo [0, 1, 2, 3] S_
  h_S_ : 0 < S_.numel
  bcast_S_S100 : S_.BroadcastsInDim S100 (![] : Fin 0 → Fin S100.rank)
  shapeCasts_S8x512x512x19_S39845888 : S8x512x512x19.ShapeCasts S39845888
  bcast_S_S39845888 : S_.BroadcastsInDim S39845888 (![] : Fin 0 → Fin S39845888.rank)
  bcast_S39845888_S39845888x1_0 : S39845888.BroadcastsInDim S39845888x1 (![0] : Fin 1 → Fin S39845888x1.rank)
  natLt_1_32 : 1 < 32
  reducesTo_S100_S_d0 : S100.ReducesTo [0] S_
  bcast_S8x512x512x19_S8x512x512x19x1_0_1_2_3 : S8x512x512x19.BroadcastsInDim S8x512x512x19x1 (![0, 1, 2, 3] : Fin 4 → Fin S8x512x512x19x1.rank)
  scatter_S100_S39845888x1_S39845888_n_0_0_1_wf : ScatterDims.WF S100 S39845888x1 S39845888 [] [0] [0] 1
  gather_S100_S8x512x512x19x1_S8x512x512x19_n_0_n_n_0_4_1_wf : GatherDims.WF S100 S8x512x512x19x1 S8x512x512x19 [] [0] [] [0] [] 4 ![1]

variable [Facts₀]

def scatter_S100_S39845888x1_S39845888_n_0_0_1 : ScatterDims S100 S39845888x1 S39845888 where
  updateWindowDims := []
  insertedWindowDims := [0]
  scatterDimsToOperandDims := [0]
  indexVectorDim := 1
  wf := scatter_S100_S39845888x1_S39845888_n_0_0_1_wf
def gather_S100_S8x512x512x19x1_S8x512x512x19_n_0_n_n_0_4_1 : GatherDims S100 S8x512x512x19x1 S8x512x512x19 where
  offsetDims := []
  collapsedSliceDims := [0]
  operandBatchingDims := []
  startIndicesBatchingDims := []
  startIndexMap := [0]
  indexVectorDim := 4
  sliceSizes := ![1]
  wf := gather_S100_S8x512x512x19x1_S8x512x512x19_n_0_n_n_0_4_1_wf

class Facts : Prop extends Facts₀ where

variable [Facts]
-- ==== Proof.Spec.lean ====
/-
  The per-element mathematics of the gradient-harmonised classification loss, shared by both programs.

  An element is a logit `a` (an extended real), the channel `c` it sits in, and, for its pixel, a label word `tg` and a mask
  bit `lb`. The class it is compared with is the label where the mask bit is set and class 0 elsewhere (`label`); its one-hot
  target `hot` is 1 when the channel is that class and 0 otherwise; its gradient norm is |σ(a) − hot|, whose hundredfold,
  rounded down and clipped to 0 … 99, is its bin (`binOf`); its loss term is max(a,0) − a·hot + log(1 + e^{−|a|}) (`bceOf`).
  Each is written with the vector operations themselves at the one-element shape, so that a whole array of them, read at an
  index, is the element function of the entries at that index by unfolding alone.
-/
import Idealize.ShloMosaic.PureOps.Ideal
import Idealize.ShloMosaic.Lib.ValueIdx

noncomputable section

namespace Cert.Proof.Spec

open Idealize.ShloMosaic Idealize.ShloMosaic.ValueIdx

/-- The one-element shape. -/
abbrev S0 : Shape := ⟨0, ![]⟩

/-- The class an element is compared with: its pixel's label where the mask bit is set, class 0 elsewhere. -/
def label (lb : BitVec 1) (tg : BitVec 32) : BitVec 32 := Scalar.select lb tg 0#32

/-- The one-hot target of channel `c`: 1 when `c` is the pixel's class, 0 otherwise. -/
def hot (c : Nat) (lb : BitVec 1) (tg : BitVec 32) : EReal := if BitVec.ofNat 32 c = label lb tg then 1 else 0

/-- The bin of an element: ⌊100 · |σ(a) − t|⌋ as a 32-bit integer, clipped to 0 … 99. -/
def binOf (a t : EReal) : BitVec 32 :=
  (minsi (broadcast S0 99#32) (maxsi (broadcast S0 0#32)
    (fptosi 32 (floor (mulf (absf (subf (logistic (F := Ideal) (φ := .f32) (fun _ : S0.Idx => a)) (fun _ => t)))
      (broadcast S0 (Scalar.ofBits (F := Ideal) .f32 0x42C80000#32))))))) ix0

/-- The loss term of an element: max(a, 0) − a·t + log(1 + e^{0 − |a|}). -/
def bceOf (a t : EReal) : EReal :=
  (addf (subf (maximumf (fun _ : S0.Idx => a) (broadcast S0 (Scalar.ofBits (F := Ideal) .f32 0x00000000#32)))
      (mulf (F := Ideal) (φ := .f32) (fun _ : S0.Idx => a) (fun _ => t)))
    (log1p (exp (subf (broadcast S0 (Scalar.ofBits (F := Ideal) .f32 0x00000000#32)) (absf (F := Ideal) (φ := .f32) (fun _ : S0.Idx => a)))))) ix0

/-- The mask bit as a number: 1 where the pixel counts, 0 where it is ignored. -/
def maskOf (lb : BitVec 1) : EReal := if lb = 1#1 then 1 else 0

/-- The elements' index set, channel-major: (batch, channel, row, column). -/
abbrev SE : Shape := ⟨4, ![8, 19, 512, 512]⟩
/-- The pixels' index set: (batch, row, column). -/
abbrev SX : Shape := ⟨3, ![8, 512, 512]⟩

/-- The pixel an element belongs to. -/
def pix (i : SE.Idx) : SX.Idx := ix3 (n0 := 8) (n1 := 512) (n2 := 512) (i 0) (i 2) (i 3)

/-- Every element's histogram slot, as one array: its bin where the pixel's mask bit is set, the sentinel slot 100
    elsewhere. -/
def slotArr (a0 : SE.Idx → EReal) (a1 : SX.Idx → BitVec 32) (lw : SX.Idx → BitVec 1) : SE.Idx → BitVec 32 :=
  fun i => Scalar.select (lw (pix i)) (binOf (a0 i) (hot (i 1).val (lw (pix i)) (a1 (pix i)))) 100#32

/-- Every element's masked loss term, as one array. -/
def lossArr (a0 : SE.Idx → EReal) (a1 : SX.Idx → BitVec 32) (lw : SX.Idx → BitVec 1) : SE.Idx → EReal :=
  fun i => bceOf (a0 i) (hot (i 1).val (lw (pix i)) (a1 (pix i))) * maskOf (lw (pix i))

/-- A mask bit is 0 or 1, so widened to 32 bits it is positive exactly when it is set. -/
theorem sgt_setWidth (lb : BitVec 1) : IntOp.cmpi .sgt (lb.setWidth 32) 0#32 = lb := by
  rcases BitVec.eq_zero_or_eq_one lb with h | h <;> subst h <;> rfl

/-- Widened to 32 bits and read signed, the mask bit is its number. -/
theorem sitofp_setWidth (lb : BitVec 1) : FloatOps.sitofp (F := Ideal) .f32 (lb.setWidth 32) = maskOf lb := by
  rcases BitVec.eq_zero_or_eq_one lb with h | h <;> subst h <;> simp [maskOf, FloatOps.sitofp]

/-- Read unsigned, the mask bit is its number. -/
theorem uitofp_bit (lb : BitVec 1) : FloatOps.uitofp (F := Ideal) .f32 lb = maskOf lb := by
  rcases BitVec.eq_zero_or_eq_one lb with h | h <;> subst h <;> simp [maskOf, FloatOps.uitofp]

end Cert.Proof.Spec

end
-- ==== Proof.KElem.lean ====
/-
  The kernel body's two stored values read at ONE index of the block.

  A block is a [1, 19, 64, 512] tile: one batch entry, all 19 channels, 64 rows, all 512 columns; the label and mask blocks
  are the [1, 64, 512] tiles of the same rows. The entry at (u, c, y, w) of what the body stores depends on the logit at
  (u, c, y, w) and on the label word and mask word of pixel (u, y, w) alone: the first stored value is the element's bin
  where the mask is set and the sentinel 100 elsewhere, the second its loss term times the mask.
-/
import proofs.«177161_j24644522344916_1_alg».proof.Proof.Gen.KernelIdeal.Skeleton
import proofs.«177161_j24644522344916_1_alg».proof.Proof.Spec
import Idealize.ShloMosaic.Lib.Pipeline.Value
import Idealize.ShloMosaic.Lib.ValueIdx

noncomputable section

namespace Cert.Proof.KElem

open Idealize.ShloMosaic Idealize.ShloMosaic.ValueIdx Cert.KernelIdeal Cert.KernelIdeal.Gen Cert.Proof.Spec

/-- Dropping the unit batch coordinate of a block index. -/
theorem tail4 (u : Fin 1) (c : Fin 19) (y : Fin 64) (w : Fin 512) :
    (fun a : Fin 3 => (ix4 u c y w : S1x19x64x512.Idx) a.succ) = (ix3 c y w : S19x64x512.Idx) := by
  funext a; match a with | ⟨0, _⟩ => rfl | ⟨1, _⟩ => rfl | ⟨2, _⟩ => rfl

/-- Putting it back. -/
theorem cons4 (u : Fin 1) (c : Fin 19) (y : Fin 64) (w : Fin 512) :
    (Fin.cons (⟨0, Nat.one_pos⟩ : Fin 1) (ix3 c y w : S19x64x512.Idx) : S1x19x64x512.Idx) = ix4 u c y w := by
  funext a
  match a with
  | ⟨0, _⟩ => exact Fin.ext (by have := u.isLt; show 0 = u.val; omega)
  | ⟨1, _⟩ => rfl | ⟨2, _⟩ => rfl | ⟨3, _⟩ => rfl

/-- A [1, 19, 64, 512] block viewed [19, 64, 512], read at (c, y, w), is the block at (u, c, y, w). -/
theorem drop4 {α : Type} (x0 : S1x19x64x512.Idx → α) (u : Fin 1) (c : Fin 19) (y : Fin 64) (w : Fin 512) :
    shapeCast S19x64x512 x0 shapeCasts_S1x19x64x512_S19x64x512 (ix3 c y w) = x0 (ix4 u c y w) :=
  (shapeCast_dropUnit_apply _ x0 shapeCasts_S1x19x64x512_S19x64x512 (ix3 c y w)).trans (congrArg x0 (cons4 u c y w))

/-- The mask words as the body uses them: the [1, 64, 512] block repeated over the 19 channels (two shape casts there and
    back are the identity). -/
theorem mask_vec (x2 : Vec Ideal S1x64x512 .i32) :
    k0_pay6 (F := Ideal) x2 = broadcastTo S19x64x512 x2 broadcasts_S1x64x512_S19x64x512 := by
  unfold k0_pay6 k0_pay4
  dsimp only
  rw [shapeCast_self, shapeCast_shapeCast]

/-- A [1, 64, 512] block repeated over the channels, read at (c, y, w), is the block at (0, y, w). -/
theorem rep_apply {α : Type} (v : S1x64x512.Idx → α) (u : Fin 1) (c : Fin 19) (y : Fin 64) (w : Fin 512) :
    broadcastTo S19x64x512 v broadcasts_S1x64x512_S19x64x512 (ix3 c y w) = v (ix3 u y w) := by
  refine broadcastTo_apply v _ _ _ fun a => ?_
  match a with
  | ⟨0, _⟩ => show u.val = 0; have := u.isLt; omega
  | ⟨1, _⟩ => rfl
  | ⟨2, _⟩ => rfl

/-- The one-hot targets as the body builds them: compare the channel number with the pixel's class, repeated over the
    channels. -/
theorem hot_vec (x1 x2 : Vec Ideal S1x64x512 .i32) :
    k0_pay5 (F := Ideal) x1 x2 = sitofp .f32 (extui 32 (cmpi .eq (iota .tc S19x64x512 32 [0] iota_S19x64x512_d0_w32)
      (broadcastTo S19x64x512 (select (cmpi .sgt x2 (broadcast S1x64x512 0#32)) x1 (broadcast S1x64x512 0#32)) broadcasts_S1x64x512_S19x64x512)) natLt_1_32) := by
  unfold k0_pay5 k0_pay4
  dsimp only
  rw [shapeCast_self]
  show sitofp .f32 (extui 32 (cmpi .eq _ (broadcastTo S19x64x512 (shapeCast S1x64x512 (shapeCast S64x512
    (select (cmpi .sgt x2 (broadcast S1x64x512 0#32)) x1 (broadcast S1x64x512 0#32)) shapeCasts_S1x64x512_S64x512) shapeCasts_S64x512_S1x64x512) _)) _) = _
  rw [shapeCast_shapeCast]

/-- A 32-bit equality test, widened and read signed, is 1 on equal words and 0 otherwise. -/
theorem eq_word (a b : BitVec 32) :
    FloatOps.sitofp (F := Ideal) .f32 ((IntOp.cmpi .eq a b).setWidth 32) = if a = b then 1 else 0 := by
  by_cases h : a = b
  · subst h; simp [IntOp.cmpi, FloatOps.sitofp]
  · have hb : (a == b) = false := beq_eq_false_iff_ne.mpr h
    simp [IntOp.cmpi, FloatOps.sitofp, h, hb]

/-- THE FIRST STORED VALUE at (u, c, y, w), when the pixel's mask word is the widened bit `lb`: the element's bin where the
    bit is set, the sentinel 100 elsewhere. -/
theorem bin_block (x0 : Vec Ideal S1x19x64x512 .f32) (x1 x2 : Vec Ideal S1x64x512 .i32)
    (u : Fin 1) (c : Fin 19) (y : Fin 64) (w : Fin 512) (lb : BitVec 1) (hl : x2 (ix3 u y w) = lb.setWidth 32) :
    k0_pay1 (k0_pay7 (F := Ideal) x0 x1 x2) (ix4 u c y w)
      = Scalar.select lb (binOf (x0 (ix4 u c y w)) (hot c.val lb (x1 (ix3 u y w)))) 100#32 := by
  unfold k0_pay1
  try dsimp only
  rw [shapeCast_addUnit_apply, tail4]
  unfold k0_pay7
  try dsimp only
  rw [mask_vec, hot_vec]
  unfold k0_pay3
  try dsimp only
  show Scalar.select (IntOp.cmpi .sgt (broadcastTo S19x64x512 x2 broadcasts_S1x64x512_S19x64x512 (ix3 c y w)) 0#32)
      (binOf (shapeCast S19x64x512 x0 shapeCasts_S1x19x64x512_S19x64x512 (ix3 c y w))
        (FloatOps.sitofp (F := Ideal) .f32 ((IntOp.cmpi .eq (iota .tc S19x64x512 32 [0] iota_S19x64x512_d0_w32 (ix3 c y w))
          (broadcastTo S19x64x512 (select (cmpi .sgt x2 (broadcast S1x64x512 0#32)) x1 (broadcast S1x64x512 0#32)) broadcasts_S1x64x512_S19x64x512 (ix3 c y w))).setWidth 32)))
      100#32 = _
  rw [rep_apply x2 u c y w, rep_apply _ u c y w, drop4 x0 u c y w, iota_single_apply, hl, sgt_setWidth, eq_word]
  show Scalar.select lb (binOf (x0 (ix4 u c y w)) (if BitVec.ofNat 32 c.val = Scalar.select (IntOp.cmpi .sgt (x2 (ix3 u y w)) 0#32) (x1 (ix3 u y w)) 0#32 then 1 else 0)) 100#32 = _
  rw [hl, sgt_setWidth]
  rfl

/-- THE SECOND STORED VALUE at (u, c, y, w): the element's loss term times the mask bit's number. -/
theorem loss_block (x0 : Vec Ideal S1x19x64x512 .f32) (x1 x2 : Vec Ideal S1x64x512 .i32)
    (u : Fin 1) (c : Fin 19) (y : Fin 64) (w : Fin 512) (lb : BitVec 1) (hl : x2 (ix3 u y w) = lb.setWidth 32) :
    k0_pay2 (F := Ideal) (k0_pay3 x0) (k0_pay5 x1 x2) (k0_pay6 x2) (ix4 u c y w)
      = bceOf (x0 (ix4 u c y w)) (hot c.val lb (x1 (ix3 u y w))) * maskOf lb := by
  unfold k0_pay2
  try dsimp only
  rw [shapeCast_addUnit_apply, tail4, mask_vec, hot_vec]
  unfold k0_pay3
  try dsimp only
  show bceOf (shapeCast S19x64x512 x0 shapeCasts_S1x19x64x512_S19x64x512 (ix3 c y w))
        (FloatOps.sitofp (F := Ideal) .f32 ((IntOp.cmpi .eq (iota .tc S19x64x512 32 [0] iota_S19x64x512_d0_w32 (ix3 c y w))
          (broadcastTo S19x64x512 (select (cmpi .sgt x2 (broadcast S1x64x512 0#32)) x1 (broadcast S1x64x512 0#32)) broadcasts_S1x64x512_S19x64x512 (ix3 c y w))).setWidth 32))
      * FloatOps.sitofp (F := Ideal) .f32 (broadcastTo S19x64x512 x2 broadcasts_S1x64x512_S19x64x512 (ix3 c y w)) = _
  rw [rep_apply x2 u c y w, rep_apply _ u c y w, drop4 x0 u c y w, iota_single_apply, eq_word, hl, sitofp_setWidth]
  show bceOf (x0 (ix4 u c y w)) (if BitVec.ofNat 32 c.val = Scalar.select (IntOp.cmpi .sgt (x2 (ix3 u y w)) 0#32) (x1 (ix3 u y w)) 0#32 then 1 else 0) * maskOf lb = _
  rw [hl, sgt_setWidth]
  rfl

end Cert.Proof.KElem

end
-- ==== Proof.KArrays.lean ====
/-
  From blocks to arrays: what the two output arrays of the region hold once every grid point has written its block back.

  The grid is 8 × 8: point (b, h) handles batch entry b and rows 64·h … 64·h + 63, all channels and columns. Its logit
  block and both output blocks sit at block index (b, 0, h, 0) of a [8, 19, 512, 512] array, its label and mask blocks at
  (b, h, 0) of a [8, 512, 512] array; so the entry (0, c, y, w) of an output block is the array entry (b, c, 64·h + y, w),
  which depends on the logit there and on pixel (b, 64·h + y, w). The 64 blocks tile the arrays, hence each output array
  is ONE function of the argument arrays, entry by entry: the slot array and the masked-loss array of the specification.
-/
import proofs.«177161_j24644522344916_1_alg».proof.Proof.Gen.KernelIdeal.Frame
import proofs.«177161_j24644522344916_1_alg».proof.Proof.KElem
import Idealize.ShloMosaic.Lib.Pipeline.Value
import Idealize.ShloMosaic.Lib.StableHlo.Run

set_option maxRecDepth 16384

noncomputable section

namespace Cert.Proof.KArrays

open Idealize.ShloMosaic Idealize.ShloMosaic.TcCoe Idealize.ShloMosaic.ValueIdx Idealize.SL.Sem
open Cert.KernelIdeal Cert.KernelIdeal.Gen Cert.Proof.Spec Cert.Proof.KElem
open Idealize.ShloMosaic.Pipeline (Dat)

variable (m : (ℓ : Loc nD τ sig) → Buf (Elt Ideal) ℓ)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The mask words the region finds: the mask bits widened to 32 bits by the one host operation before it. -/
theorem V_mask (c : Dev nD) :
    (V m c main_v0 : S8x512x512.Idx → BitVec 32) = extui 32 (m ((c : Thread nD τ).loc main_arg2)) natLt_1_32 := by
  show StableHlo.after hostOps0 (fun b => m (c, b)) (Proc.devRef .tc main_v0) = _
  after_results

/-- The printed block-index maps, decided over the 64 grid points: every window moves with the outputs' (b, 0, h, 0). -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 3) = win0_3.index t (0 : Fin 4) ∧ win0_1.index t (1 : Fin 3) = win0_3.index t (2 : Fin 4)
    ∧ win0_1.index t (2 : Fin 3) = 0
    ∧ win0_2.index t (0 : Fin 3) = win0_3.index t (0 : Fin 4) ∧ win0_2.index t (1 : Fin 3) = win0_3.index t (2 : Fin 4)
    ∧ win0_2.index t (2 : Fin 3) = 0
    ∧ win0_3.index t (1 : Fin 4) = 0 ∧ win0_3.index t (3 : Fin 4) = 0
    ∧ win0_3.index t (0 : Fin 4) ≤ 7 ∧ win0_3.index t (2 : Fin 4) ≤ 7
    ∧ win0_4.index t (0 : Fin 4) = win0_3.index t (0 : Fin 4) ∧ win0_4.index t (1 : Fin 4) = 0
    ∧ win0_4.index t (2 : Fin 4) = win0_3.index t (2 : Fin 4) ∧ win0_4.index t (3 : Fin 4) = 0 :=
  (by decide +kernel : ∀ t : Fin grid0.N, _)

/-- Every (batch entry, row tile) is some point's. -/
theorem idx_onto : ∀ (q0 : Fin 8) (q2 : Fin 8), ∃ t : Fin cfg0.N, win0_3.index t = ![q0.val, 0, q2.val, 0] :=
  (by decide +kernel : ∀ (q0 : Fin 8) (q2 : Fin 8), ∃ t : Fin grid0.N, win0_3.index t = ![q0.val, 0, q2.val, 0])

/-- WHAT POINT `t` WRITES BACK through the first output window is block `t` of the slot array. -/
theorem flushed3_eq (c : Dev nD) (t : Fin cfg0.N) :
    (dats m 0 c).flushed 3 t = ((cfg0.win 3).blk t).view.read (Elt Ideal)
      (slotArr (V m c main_arg0) (V m c main_arg1) (m ((c : Thread nD τ).loc main_arg2))) := by
  show (cfg0.win 3).cut (grid0.coords t) ((dats m 0 c).after 3 t) = _
  rw [after0_3]
  unfold out0_3
  rw [View.canon_unit_zero hz4]
  simp only [View.ld_unit_zero (S := S1x19x64x512) hz4, View.ld_unit_zero (S := S1x64x512) hz3]
  obtain ⟨e0, e1, e2, e3, e4, e5, e6, e7, e8, e9, e10, e11, e12, e13, -⟩ := idx_facts t
  funext j
  obtain ⟨u, c', y, w, rfl⟩ : ∃ (u : Fin 1) (c' : Fin 19) (y : Fin 64) (w : Fin 512), j = (ix4 u c' y w : S1x19x64x512.Idx) :=
    ⟨j 0, j 1, j 2, j 3, eq_ix4 j⟩
  have hl : iblk m c 2 t (ix3 u y w) = (m ((c : Thread nD τ).loc main_arg2) (((cfg0.win 2).blk t).view.emb (ix3 u y w))).setWidth 32 := by
    show V m c main_v0 (((cfg0.win 2).blk t).view.emb (ix3 u y w)) = _
    rw [V_mask]
    rfl
  refine (bin_block (iblk m c 0 t) (iblk m c 1 t) (iblk m c 2 t) u c' y w _ hl).trans ?_
  show Scalar.select (m ((c : Thread nD τ).loc main_arg2) (((cfg0.win 2).blk t).view.emb (ix3 u y w)))
      (binOf (V m c main_arg0 (((cfg0.win 0).blk t).view.emb (ix4 u c' y w)))
        (hot c'.val (m ((c : Thread nD τ).loc main_arg2) (((cfg0.win 2).blk t).view.emb (ix3 u y w)))
          (V m c main_arg1 (((cfg0.win 1).blk t).view.emb (ix3 u y w))))) 100#32
    = slotArr (V m c main_arg0) (V m c main_arg1) (m ((c : Thread nD τ).loc main_arg2)) (((cfg0.win 3).blk t).view.emb (ix4 u c' y w))
  have h0 : ((cfg0.win 0).blk t).view.emb (ix4 u c' y w) = ((cfg0.win 3).blk t).view.emb (ix4 u c' y w) := by
    funext a; apply Fin.ext
    match a with
    | ⟨0, _⟩ => show win0_0.index t (0 : Fin 4) * 1 + 1 * u.val = win0_3.index t (0 : Fin 4) * 1 + 1 * u.val; omega
    | ⟨1, _⟩ => show win0_0.index t (1 : Fin 4) * 19 + 1 * c'.val = win0_3.index t (1 : Fin 4) * 19 + 1 * c'.val; omega
    | ⟨2, _⟩ => show win0_0.index t (2 : Fin 4) * 64 + 1 * y.val = win0_3.index t (2 : Fin 4) * 64 + 1 * y.val; omega
    | ⟨3, _⟩ => show win0_0.index t (3 : Fin 4) * 512 + 1 * w.val = win0_3.index t (3 : Fin 4) * 512 + 1 * w.val; omega
  have h1 : ((cfg0.win 1).blk t).view.emb (ix3 u y w) = pix (((cfg0.win 3).blk t).view.emb (ix4 u c' y w)) := by
    funext a; apply Fin.ext
    match a with
    | ⟨0, _⟩ => show win0_1.index t (0 : Fin 3) * 1 + 1 * u.val = win0_3.index t (0 : Fin 4) * 1 + 1 * u.val; omega
    | ⟨1, _⟩ => show win0_1.index t (1 : Fin 3) * 64 + 1 * y.val = win0_3.index t (2 : Fin 4) * 64 + 1 * y.val; omega
    | ⟨2, _⟩ => show win0_1.index t (2 : Fin 3) * 512 + 1 * w.val = win0_3.index t (3 : Fin 4) * 512 + 1 * w.val; omega
  have h2 : ((cfg0.win 2).blk t).view.emb (ix3 u y w) = pix (((cfg0.win 3).blk t).view.emb (ix4 u c' y w)) := by
    funext a; apply Fin.ext
    match a with
    | ⟨0, _⟩ => show win0_2.index t (0 : Fin 3) * 1 + 1 * u.val = win0_3.index t (0 : Fin 4) * 1 + 1 * u.val; omega
    | ⟨1, _⟩ => show win0_2.index t (1 : Fin 3) * 64 + 1 * y.val = win0_3.index t (2 : Fin 4) * 64 + 1 * y.val; omega
    | ⟨2, _⟩ => show win0_2.index t (2 : Fin 3) * 512 + 1 * w.val = win0_3.index t (3 : Fin 4) * 512 + 1 * w.val; omega
  have hc : ((((cfg0.win 3).blk t).view.emb (ix4 u c' y w)) 1).val = c'.val := by
    show win0_3.index t (1 : Fin 4) * 19 + 1 * c'.val = c'.val; omega
  unfold slotArr
  rw [h0, h1, h2, hc]

/-- WHAT POINT `t` WRITES BACK through the second output window is block `t` of the masked-loss array. -/
theorem flushed4_eq (c : Dev nD) (t : Fin cfg0.N) :
    (dats m 0 c).flushed 4 t = ((cfg0.win 4).blk t).view.read (Elt Ideal)
      (lossArr (V m c main_arg0) (V m c main_arg1) (m ((c : Thread nD τ).loc main_arg2))) := by
  show (cfg0.win 4).cut (grid0.coords t) ((dats m 0 c).after 4 t) = _
  rw [after0_4]
  unfold out0_4
  rw [View.canon_unit_zero hz4]
  simp only [View.ld_unit_zero (S := S1x19x64x512) hz4, View.ld_unit_zero (S := S1x64x512) hz3]
  obtain ⟨e0, e1, e2, e3, e4, e5, e6, e7, e8, e9, e10, e11, e12, e13, e14, e15, e16, e17⟩ := idx_facts t
  funext j
  obtain ⟨u, c', y, w, rfl⟩ : ∃ (u : Fin 1) (c' : Fin 19) (y : Fin 64) (w : Fin 512), j = (ix4 u c' y w : S1x19x64x512.Idx) :=
    ⟨j 0, j 1, j 2, j 3, eq_ix4 j⟩
  have hl : iblk m c 2 t (ix3 u y w) = (m ((c : Thread nD τ).loc main_arg2) (((cfg0.win 2).blk t).view.emb (ix3 u y w))).setWidth 32 := by
    show V m c main_v0 (((cfg0.win 2).blk t).view.emb (ix3 u y w)) = _
    rw [V_mask]
    rfl
  refine (loss_block (iblk m c 0 t) (iblk m c 1 t) (iblk m c 2 t) u c' y w _ hl).trans ?_
  show (bceOf (V m c main_arg0 (((cfg0.win 0).blk t).view.emb (ix4 u c' y w)))
        (hot c'.val (m ((c : Thread nD τ).loc main_arg2) (((cfg0.win 2).blk t).view.emb (ix3 u y w)))
          (V m c main_arg1 (((cfg0.win 1).blk t).view.emb (ix3 u y w)))))
      * maskOf (m ((c : Thread nD τ).loc main_arg2) (((cfg0.win 2).blk t).view.emb (ix3 u y w)))
    = lossArr (V m c main_arg0) (V m c main_arg1) (m ((c : Thread nD τ).loc main_arg2)) (((cfg0.win 4).blk t).view.emb (ix4 u c' y w))
  have h0 : ((cfg0.win 0).blk t).view.emb (ix4 u c' y w) = ((cfg0.win 4).blk t).view.emb (ix4 u c' y w) := by
    funext a; apply Fin.ext
    match a with
    | ⟨0, _⟩ => show win0_0.index t (0 : Fin 4) * 1 + 1 * u.val = win0_4.index t (0 : Fin 4) * 1 + 1 * u.val; omega
    | ⟨1, _⟩ => show win0_0.index t (1 : Fin 4) * 19 + 1 * c'.val = win0_4.index t (1 : Fin 4) * 19 + 1 * c'.val; omega
    | ⟨2, _⟩ => show win0_0.index t (2 : Fin 4) * 64 + 1 * y.val = win0_4.index t (2 : Fin 4) * 64 + 1 * y.val; omega
    | ⟨3, _⟩ => show win0_0.index t (3 : Fin 4) * 512 + 1 * w.val = win0_4.index t (3 : Fin 4) * 512 + 1 * w.val; omega
  have h1 : ((cfg0.win 1).blk t).view.emb (ix3 u y w) = pix (((cfg0.win 4).blk t).view.emb (ix4 u c' y w)) := by
    funext a; apply Fin.ext
    match a with
    | ⟨0, _⟩ => show win0_1.index t (0 : Fin 3) * 1 + 1 * u.val = win0_4.index t (0 : Fin 4) * 1 + 1 * u.val; omega
    | ⟨1, _⟩ => show win0_1.index t (1 : Fin 3) * 64 + 1 * y.val = win0_4.index t (2 : Fin 4) * 64 + 1 * y.val; omega
    | ⟨2, _⟩ => show win0_1.index t (2 : Fin 3) * 512 + 1 * w.val = win0_4.index t (3 : Fin 4) * 512 + 1 * w.val; omega
  have h2 : ((cfg0.win 2).blk t).view.emb (ix3 u y w) = pix (((cfg0.win 4).blk t).view.emb (ix4 u c' y w)) := by
    funext a; apply Fin.ext
    match a with
    | ⟨0, _⟩ => show win0_2.index t (0 : Fin 3) * 1 + 1 * u.val = win0_4.index t (0 : Fin 4) * 1 + 1 * u.val; omega
    | ⟨1, _⟩ => show win0_2.index t (1 : Fin 3) * 64 + 1 * y.val = win0_4.index t (2 : Fin 4) * 64 + 1 * y.val; omega
    | ⟨2, _⟩ => show win0_2.index t (2 : Fin 3) * 512 + 1 * w.val = win0_4.index t (3 : Fin 4) * 512 + 1 * w.val; omega
  have hc : ((((cfg0.win 4).blk t).view.emb (ix4 u c' y w)) 1).val = c'.val := by
    show win0_4.index t (1 : Fin 4) * 19 + 1 * c'.val = c'.val; omega
  unfold lossArr
  rw [h0, h1, h2, hc]

/-- An entry is in point `t`'s block of the first output iff each coordinate is in the block's range. -/
theorem mem_blk3 (t : Fin cfg0.N) (i : S8x19x512x512.Idx) :
    i ∈ ((cfg0.win 3).blk t).view.set ↔ ∀ a : Fin 4, win0_3.index t a * S1x19x64x512.size a ≤ (i a).val ∧ (i a).val < win0_3.index t a * S1x19x64x512.size a + S1x19x64x512.size a := by
  show i ∈ ((View.whole main_v1_0).slice (win0_3.rect t)).set ↔ _
  rw [View.set_slice_whole, Rect.mem_set_unit]
  exact Iff.rfl

/-- The same for the second output. -/
theorem mem_blk4 (t : Fin cfg0.N) (i : S8x19x512x512.Idx) :
    i ∈ ((cfg0.win 4).blk t).view.set ↔ ∀ a : Fin 4, win0_4.index t a * S1x19x64x512.size a ≤ (i a).val ∧ (i a).val < win0_4.index t a * S1x19x64x512.size a + S1x19x64x512.size a := by
  show i ∈ ((View.whole main_v1_1).slice (win0_4.rect t)).set ↔ _
  rw [View.set_slice_whole, Rect.mem_set_unit]
  exact Iff.rfl

/-- Every entry (b, c, r, w) is in the block of the point with batch entry b and row tile r / 64. -/
theorem cover3 (i : S8x19x512x512.Idx) : ∃ t : Fin cfg0.N, (cfg0.win 3).flush t = true ∧ i ∈ ((cfg0.win 3).blk t).view.set := by
  have hi0 : (i 0).val < 8 := (i 0).isLt
  have hi1 : (i 1).val < 19 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  have q0 : win0_3.index t (0 : Fin 4) = (i 0).val := congrFun ht 0
  have q1 : win0_3.index t (1 : Fin 4) = 0 := congrFun ht 1
  have q2 : win0_3.index t (2 : Fin 4) = (i 2).val / 64 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 19 ≤ (i 1).val ∧ (i 1).val < win0_3.index t (1 : Fin 4) * 19 + 19; omega
  | ⟨2, _⟩ => show win0_3.index t (2 : Fin 4) * 64 ≤ (i 2).val ∧ (i 2).val < win0_3.index t (2 : Fin 4) * 64 + 64; omega
  | ⟨3, _⟩ => show win0_3.index t (3 : Fin 4) * 512 ≤ (i 3).val ∧ (i 3).val < win0_3.index t (3 : Fin 4) * 512 + 512; omega

theorem cover4 (i : S8x19x512x512.Idx) : ∃ t : Fin cfg0.N, (cfg0.win 4).flush t = true ∧ i ∈ ((cfg0.win 4).blk t).view.set := by
  have hi0 : (i 0).val < 8 := (i 0).isLt
  have hi1 : (i 1).val < 19 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  obtain ⟨-, -, -, -, -, -, -, -, -, -, -, -, -, -, e14, e15, e16, e17⟩ := idx_facts t
  have q0 : win0_3.index t (0 : Fin 4) = (i 0).val := congrFun ht 0
  have q2 : win0_3.index t (2 : Fin 4) = (i 2).val / 64 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 19 ≤ (i 1).val ∧ (i 1).val < win0_4.index t (1 : Fin 4) * 19 + 19; omega
  | ⟨2, _⟩ => show win0_4.index t (2 : Fin 4) * 64 ≤ (i 2).val ∧ (i 2).val < win0_4.index t (2 : Fin 4) * 64 + 64; omega
  | ⟨3, _⟩ => show win0_4.index t (3 : Fin 4) * 512 ≤ (i 3).val ∧ (i 3).val < win0_4.index t (3 : Fin 4) * 512 + 512; omega

/-- THE FIRST OUTPUT ARRAY after the region: the slot array of the argument arrays. -/
theorem final3 (c : Dev nD) : (dats m 0 c).arrAt 3 cfg0.N
    = slotArr (m ((c : Thread nD τ).loc main_arg0)) (m ((c : Thread nD τ).loc main_arg1)) (m ((c : Thread nD τ).loc main_arg2)) := by
  have h := (dats m 0 c).arrAt_eq_of_cover 3 (slotArr (V m c main_arg0) (V m c main_arg1) (m ((c : Thread nD τ).loc main_arg2)))
    (fun t _ => flushed3_eq m c t) cover3
  rw [V_main_arg0, V_main_arg1] at h
  exact h

/-- THE SECOND OUTPUT ARRAY after the region: the masked-loss array of the argument arrays. -/
theorem final4 (c : Dev nD) : (dats m 0 c).arrAt 4 cfg0.N
    = lossArr (m ((c : Thread nD τ).loc main_arg0)) (m ((c : Thread nD τ).loc main_arg1)) (m ((c : Thread nD τ).loc main_arg2)) := by
  have h := (dats m 0 c).arrAt_eq_of_cover 4 (lossArr (V m c main_arg0) (V m c main_arg1) (m ((c : Thread nD τ).loc main_arg2)))
    (fun t _ => flushed4_eq m c t) cover4
  rw [V_main_arg0, V_main_arg1] at h
  exact h

end Cert.Proof.KArrays

end
-- ==== Proof.KTailDef.lean ====
/-
  The host operations after the region, as ONE function of the region's two output arrays.

  Flatten both arrays; turn each slot word into a scatter index (a negative word would wrap by 101; none is); scatter-add a 1
  per element, and scatter-add the masked loss terms, into 101 zeros each; keep slots 0 … 99 of both (slot 100 collects the
  ignored elements); n = the number of non-empty bins; S = the sum over the bins of (loss sum) / max(count, 1); the result is
  S / n when n > 0 and S otherwise, times 1.
-/
import proofs.«177161_j24644522344916_1_alg».proof.Proof.Gen.KernelIdeal
import Idealize.ShloMosaic.PureOps.Ideal

noncomputable section

namespace Cert.Proof.KTail

open Idealize.ShloMosaic Cert.KernelIdeal Cert.KernelIdeal.Gen

/-- The scatter indices: the flattened slot words, as a column. -/
def tailIdx (o3 : IVec S8x19x512x512 32) : IVec S39845888x1 32 :=
  broadcastInDim S39845888x1 ![0] bcast_S39845888_S39845888x1_0
    (select (cmpi .slt (shapeCast S39845888 o3 shapeCasts_S8x19x512x512_S39845888) (broadcastInDim S39845888 ![] bcast_S_S39845888 (constantI S_ 32 0#32)))
      (addi (shapeCast S39845888 o3 shapeCasts_S8x19x512x512_S39845888) (broadcastInDim S39845888 ![] bcast_S_S39845888 (constantI S_ 32 101#32)))
      (shapeCast S39845888 o3 shapeCasts_S8x19x512x512_S39845888))

/-- The 101-slot histogram of counts. -/
def tailCnt101 (o3 : IVec S8x19x512x512 32) : FVec Ideal S101 .f32 :=
  Host.scatterAdd scatter_S101_S39845888x1_S39845888_n_0_0_1 (broadcastInDim S101 ![] bcast_S_S101 (constant S_ .f32 0x00000000#32))
    (tailIdx o3) (broadcastInDim S39845888 ![] bcast_S_S39845888 (constant S_ .f32 0x3F800000#32))

/-- The 101-slot histogram of loss sums. -/
def tailLoss101 (o3 : IVec S8x19x512x512 32) (o4 : FVec Ideal S8x19x512x512 .f32) : FVec Ideal S101 .f32 :=
  Host.scatterAdd scatter_S101_S39845888x1_S39845888_n_0_0_1 (broadcastInDim S101 ![] bcast_S_S101 (constant S_ .f32 0x00000000#32))
    (tailIdx o3) (shapeCast S39845888 o4 shapeCasts_S8x19x512x512_S39845888)

/-- Slots 0 … 99 of the counts. -/
def tailCnt (o3 : IVec S8x19x512x512 32) : FVec Ideal S100 .f32 := extractStridedSlice S100 ![0] (tailCnt101 o3) slices_S101_S100_0
/-- Slots 0 … 99 of the loss sums. -/
def tailLoss (o3 : IVec S8x19x512x512 32) (o4 : FVec Ideal S8x19x512x512 .f32) : FVec Ideal S100 .f32 :=
  extractStridedSlice S100 ![0] (tailLoss101 o3 o4) slices_S101_S100_0

/-- The number of non-empty bins. -/
def tailN (o3 : IVec S8x19x512x512 32) : FVec Ideal S_ .f32 :=
  sitofp .f32 (Host.reduce IntOp.addi (extui 32 (cmpf .ogt (tailCnt o3) (broadcastInDim S100 ![] bcast_S_S100 (constant S_ .f32 0x00000000#32))) natLt_1_32)
    (constantI S_ 32 0#32) reducesTo_S100_S_d0 h_S_)

/-- The sum over the bins of (loss sum) / max(count, 1). -/
def tailS (o3 : IVec S8x19x512x512 32) (o4 : FVec Ideal S8x19x512x512 .f32) : FVec Ideal S_ .f32 :=
  Host.reduceAdd (Host.divf (tailLoss o3 o4) (maximumf (tailCnt o3) (broadcastInDim S100 ![] bcast_S_S100 (constant S_ .f32 0x3F800000#32))))
    (constant S_ .f32 0x00000000#32) reducesTo_S100_S_d0 h_S_

/-- The program's result. -/
def tail (o3 : IVec S8x19x512x512 32) (o4 : FVec Ideal S8x19x512x512 .f32) : FVec Ideal S_ .f32 :=
  mulf (select (cmpf .ogt (tailN o3) (constant S_ .f32 0x00000000#32)) (Host.divf (tailS o3 o4) (tailN o3)) (tailS o3 o4))
    (constant S_ .f32 0x3F800000#32)

end Cert.Proof.KTail

end
-- ==== Proof.KRun.lean ====
/-
  The idealized kernel's run, read: every weakly fair execution ends with the result buffer at the host tail's function of
  the slot array and the masked-loss array of the argument arrays, and with the arguments unchanged.

  The generated frame run leaves each output array at what the blocks wrote (the two arrays of the specification) and every
  other buffer at what the host operations after the region compute from those arrays; the result buffer is the last of
  them.
-/
import proofs.«177161_j24644522344916_1_alg».proof.Proof.KArrays
import proofs.«177161_j24644522344916_1_alg».proof.Proof.KTailDef
import Idealize.ShloMosaic.Lib.Pipeline.FrameSuffix
import Idealize.ShloMosaic.Lib.StableHlo.Run

set_option maxRecDepth 16384

noncomputable section

namespace Cert.Proof.KRun

open Idealize.ShloMosaic Idealize.ShloMosaic.TcCoe Idealize.ShloMosaic.ValueIdx Idealize.SL.Sem Idealize.ShloMosaic.StableHlo
open Cert.KernelIdeal Cert.KernelIdeal.Gen Cert.Proof.Spec Cert.Proof.KArrays Cert.Proof.KTail
open Idealize.ShloMosaic.Pipeline (Dat)

/-- A called function's value, carried to its buffer's type and back, is itself (the two types are one). -/
theorem toBuf34 (h1 : main_v34.ty = (⟨S_, .f32⟩ : BufTy)) (h2 : main_v34.space ≠ .host) (h3 : main_v34.isScoped = false)
    (v : (⟨S_, .f32⟩ : BufTy).Contents (Elt Ideal)) : (TRef.of main_v34 h1 h2 h3).toBuf v = v := rfl
theorem ofBuf32 (h1 : main_v32.ty = (⟨S_, .i1⟩ : BufTy)) (h2 : main_v32.space ≠ .host) (h3 : main_v32.isScoped = false)
    (v : main_v32.ty.Contents (Elt Ideal)) : (TRef.of main_v32 h1 h2 h3).ofBuf v = v := rfl
theorem ofBuf33 (h1 : main_v33.ty = (⟨S_, .f32⟩ : BufTy)) (h2 : main_v33.space ≠ .host) (h3 : main_v33.isScoped = false)
    (v : main_v33.ty.Contents (Elt Ideal)) : (TRef.of main_v33 h1 h2 h3).ofBuf v = v := rfl
theorem ofBuf31 (h1 : main_v31.ty = (⟨S_, .f32⟩ : BufTy)) (h2 : main_v31.space ≠ .host) (h3 : main_v31.isScoped = false)
    (v : main_v31.ty.Contents (Elt Ideal)) : (TRef.of main_v31 h1 h2 h3).ofBuf v = v := rfl

set_option maxHeartbeats 1000000 in
/-- The host operations after the region, run from any contents `W` of the buffers, leave the result buffer at the tail's
    function of the two output arrays' contents: stage by stage, each stretch of operations is the named stage (the scatter
    indices, the two 101-slot histograms, their first hundred slots, the number of non-empty bins, the sum over the bins), and
    the called function's one select reads its operands through casts that are the identity. -/
theorem tail_after (W : Valuation τ sig (Elt Ideal)) :
    StableHlo.after (List.flatten [hostOps1, hostOps1_1, hostOps1_2]) W (Proc.devRef .tc main_v35)
      = Cert.Proof.KTail.tail (W (Proc.devRef .tc main_v1_0)) (W (Proc.devRef .tc main_v1_1)) := by
  simp only [hostOps1, hostOps1_1, hostOps1_2, List.flatten_cons, List.flatten_nil, List.append_nil, List.cons_append, List.nil_append]
  after_results_simp
  have hidx : broadcastInDim S39845888x1 ![0] bcast_S39845888_S39845888x1_0
      (select (cmpi .slt (fun i => shapeCast main_v2.ty.shape (W (Proc.devRef .tc main_v1_0)) shapeCasts_S8x19x512x512_S39845888 i)
          (broadcastInDim S39845888 ![] bcast_S_S39845888 (constantI S_ 32 0#32)))
        (addi (fun i => shapeCast main_v2.ty.shape (W (Proc.devRef .tc main_v1_0)) shapeCasts_S8x19x512x512_S39845888 i)
          (broadcastInDim S39845888 ![] bcast_S_S39845888 (constantI S_ 32 101#32)))
        (fun i => shapeCast main_v2.ty.shape (W (Proc.devRef .tc main_v1_0)) shapeCasts_S8x19x512x512_S39845888 i))
      = tailIdx (W (Proc.devRef .tc main_v1_0)) := rfl
  rw [hidx]
  have hc101 : Host.scatterAdd scatter_S101_S39845888x1_S39845888_n_0_0_1 (broadcastInDim S101 ![] bcast_S_S101 (constant (F := Ideal) S_ .f32 0x00000000#32))
      (tailIdx (W (Proc.devRef .tc main_v1_0))) (broadcastInDim S39845888 ![] bcast_S_S39845888 (constant (F := Ideal) S_ .f32 0x3F800000#32))
      = tailCnt101 (W (Proc.devRef .tc main_v1_0)) := rfl
  rw [hc101]
  have hl101 : Host.scatterAdd scatter_S101_S39845888x1_S39845888_n_0_0_1 (broadcastInDim S101 ![] bcast_S_S101 (constant (F := Ideal) S_ .f32 0x00000000#32))
      (tailIdx (W (Proc.devRef .tc main_v1_0))) (fun i => shapeCast main_v3.ty.shape (W (Proc.devRef .tc main_v1_1)) shapeCasts_S8x19x512x512_S39845888 i)
      = tailLoss101 (W (Proc.devRef .tc main_v1_0)) (W (Proc.devRef .tc main_v1_1)) := rfl
  erw [hl101]
  have hc : extractStridedSlice S100 ![0] (tailCnt101 (W (Proc.devRef .tc main_v1_0))) slices_S101_S100_0 = tailCnt (W (Proc.devRef .tc main_v1_0)) := rfl
  have hl : extractStridedSlice S100 ![0] (tailLoss101 (W (Proc.devRef .tc main_v1_0)) (W (Proc.devRef .tc main_v1_1))) slices_S101_S100_0
      = tailLoss (W (Proc.devRef .tc main_v1_0)) (W (Proc.devRef .tc main_v1_1)) := rfl
  rw [hc, hl]
  have hN : sitofp (F := Ideal) .f32 (Host.reduce IntOp.addi (extui 32 (cmpf .ogt (tailCnt (W (Proc.devRef .tc main_v1_0))) (broadcastInDim S100 ![] bcast_S_S100 (constant (F := Ideal) S_ .f32 0x00000000#32))) natLt_1_32)
      (constantI S_ 32 0#32) reducesTo_S100_S_d0 h_S_) = tailN (W (Proc.devRef .tc main_v1_0)) := rfl
  rw [hN]
  have hS : Host.reduceAdd (Host.divf (tailLoss (W (Proc.devRef .tc main_v1_0)) (W (Proc.devRef .tc main_v1_1))) (maximumf (tailCnt (W (Proc.devRef .tc main_v1_0))) (broadcastInDim S100 ![] bcast_S_S100 (constant (F := Ideal) S_ .f32 0x3F800000#32))))
      (constant (F := Ideal) S_ .f32 0x00000000#32) reducesTo_S100_S_d0 h_S_ = tailS (W (Proc.devRef .tc main_v1_0)) (W (Proc.devRef .tc main_v1_1)) := rfl
  rw [hS]
  rw [toBuf34, ofBuf32, ofBuf33, ofBuf31]
  rfl

variable (m : (ℓ : Loc nD τ sig) → Buf (Elt Ideal) ℓ) (ρ : Dev nD → PrngReg)

/-- The result buffer after the run, on core `c`. -/
theorem tail_result (c : Dev nD) :
    Pipeline.afterTail₀ cfgs (dats m) 0 (V0 m) [hostOps1, hostOps1_1, hostOps1_2] c main_v35
      = Cert.Proof.KTail.tail
          (slotArr (m ((c : Thread nD τ).loc main_arg0)) (m ((c : Thread nD τ).loc main_arg1)) (m ((c : Thread nD τ).loc main_arg2)))
          (lossArr (m ((c : Thread nD τ).loc main_arg0)) (m ((c : Thread nD τ).loc main_arg1)) (m ((c : Thread nD τ).loc main_arg2))) := by
  unfold Pipeline.afterTail₀
  refine (tail_after _).trans ?_
  exact congrArg₂ Cert.Proof.KTail.tail
    ((Pipeline.withArrays_arr spec0 launch0.win.arr_inj c _ _ 3).trans (final3 m c))
    ((Pipeline.withArrays_arr spec0 launch0.win.arr_inj c _ _ 4).trans (final4 m c))

/-- THE RUN of the idealized kernel, with its result named. -/
theorem run : θ_run defs (onTc (τ := τ) (main (F := Ideal))) ⟨m, fun _ => 0, ρ⟩ (fun r => ∀ c : Dev nD,
      r.2.mem ((c.tc : Thread nD τ).loc main_v35) = Cert.Proof.KTail.tail
          (slotArr (m ((c : Thread nD τ).loc main_arg0)) (m ((c : Thread nD τ).loc main_arg1)) (m ((c : Thread nD τ).loc main_arg2)))
          (lossArr (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v35 (Pipeline.mem_restRefs_of main_v35 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.Proof.KRun

end
-- ==== Proof.Model.lean ====
/-
  The two programs' common model.

  Elements are indexed channel-major, (batch, channel, row, column); the reference lays them out channel-last, (batch, row,
  column, channel), and `toSE` is the bijection between the two. An element is VALID when its pixel's mask bit is set; its bin,
  a number below 100, is `binJ`. `cntM j` is the number of valid elements in bin `j`, `lossM j` the sum of their loss terms,
  `nOf` the number of non-empty bins (as the programs compute it: compare with 0, widen, add up as 32-bit integers, convert).
-/
import proofs.«177161_j24644522344916_1_alg».proof.Proof.Spec
import Idealize.ShloMosaic.PureOps.Ideal
import Idealize.ShloMosaic.PureOps.Contract
import Idealize.ShloMosaic.Lib.ValueIdx

noncomputable section

namespace Cert.Proof.Model

open Finset Idealize.ShloMosaic Idealize.ShloMosaic.ValueIdx Cert.Proof.Spec

/-- The bins' index set. -/
abbrev SJ : Shape := ⟨1, ![100]⟩
/-- The elements' index set in the channel-last layout: (batch, row, column, channel). -/
abbrev SR : Shape := ⟨4, ![8, 512, 512, 19]⟩

/-- Channel-last to channel-major. -/
def toSE : SR.Idx ≃ SE.Idx where
  toFun q := ix4 (n0 := 8) (n1 := 19) (n2 := 512) (n3 := 512) (q 0) (q 3) (q 1) (q 2)
  invFun p := ix4 (n0 := 8) (n1 := 512) (n2 := 512) (n3 := 19) (p 0) (p 2) (p 3) (p 1)
  left_inv q := by funext a; match a with | ⟨0, _⟩ => rfl | ⟨1, _⟩ => rfl | ⟨2, _⟩ => rfl | ⟨3, _⟩ => rfl
  right_inv p := by funext a; match a with | ⟨0, _⟩ => rfl | ⟨1, _⟩ => rfl | ⟨2, _⟩ => rfl | ⟨3, _⟩ => rfl

section
variable (a0 : SE.Idx → EReal) (a1 : SX.Idx → BitVec 32) (lw : SX.Idx → BitVec 1)

/-- An element's one-hot target. -/
def hotAt (p : SE.Idx) : EReal := hot (p 1).val (lw (pix p)) (a1 (pix p))
/-- An element's bin, as the 32-bit word the programs compute. -/
def binWord (p : SE.Idx) : BitVec 32 := binOf (a0 p) (hotAt a1 lw p)
/-- An element's loss term. -/
def lossAt (p : SE.Idx) : EReal := bceOf (a0 p) (hotAt a1 lw p)
/-- An element counts when its pixel's mask bit is set. -/
def valid (p : SE.Idx) : Prop := lw (pix p) = 1#1
instance : DecidablePred (valid lw) := fun p => inferInstanceAs (Decidable (lw (pix p) = 1#1))
/-- An element's bin as an index of the histogram (the word read signed; it is below 100 by the clipping). -/
def binJ (p : SE.Idx) : SJ.Idx := ix1 (n := 100) ⟨min (binWord a0 a1 lw p).toInt.toNat 99, by omega⟩
/-- The number of valid elements in bin `j`. -/
def cntM (j : SJ.Idx) : EReal := ∑ p ∈ univ.filter (fun p => valid lw p ∧ binJ a0 a1 lw p = j), (1 : EReal)
/-- The sum of the loss terms of the valid elements in bin `j`. -/
def lossM (j : SJ.Idx) : EReal := ∑ p ∈ univ.filter (fun p => valid lw p ∧ binJ a0 a1 lw p = j), lossAt a0 a1 lw p
end

theorem bcastJ : S0.BroadcastsInDim SJ (![] : Fin 0 → Fin SJ.rank) := by decide
theorem redJ : SJ.ReducesTo [0] S0 := by decide
theorem posS0 : 0 < S0.numel := by decide

/-- The number of non-empty bins of a histogram, computed as both programs do: mark the positive entries, widen the marks
    to 32-bit integers, add them up from 0, and convert the total. -/
def nOf (cnt : SJ.Idx → EReal) : EReal :=
  (sitofp (F := Ideal) .f32 (Host.reduce IntOp.addi (extui 32 (cmpf (F := Ideal) (φ := .f32) .ogt cnt
    (broadcastInDim SJ ![] bcastJ (constant (F := Ideal) S0 .f32 0x00000000#32))) (by decide)) (constantI S0 32 0#32) redJ posS0)) ix0

/-- It is a real number (an integer's value). -/
theorem nOf_real (cnt : SJ.Idx → EReal) : ∃ r : ℝ, nOf cnt = (r : EReal) := ⟨_, rfl⟩

end Cert.Proof.Model

end
-- ==== Proof.LibFlatScatterTake.lean ====
/-
  Two StableHLO shape operations read at an index, for flat (rank-1) operands.

  (1) SCATTER-ADD INTO A FLAT ARRAY. For an operand x : [N], scatter indices idx : [R, 1] and updates
  upd : [R], with no window axes, the one operand axis inserted, and the index vector on axis 1 of the
  indices, update e lands on operand element i exactly when its start index idx[e, 0], read as a signed
  integer, equals i; an update whose start index is negative or at least N lands nowhere. Hence

      scatterAdd x idx upd i = x i + sum over e of (if idx[e, 0] = i then upd e else 0).

  (2) GATHER FROM A FLAT TABLE AT A RANK-4 INDEX ARRAY. For a table x : [N] and start indices
  idx : [A, B, C, D, 1] with result [A, B, C, D], no offset axes, the one operand axis collapsed with
  slice size 1, and the index vector on axis 4, result element (a, b, c, d) is x at idx[a, b, c, d, 0]
  read signed and clamped into [0, N - 1].

  (3) A word k whose signed value lies in [0, N) is its own clamp into [0, N - 1].
-/
import Idealize.ShloMosaic.PureOps.Ideal
import Idealize.ShloMosaic.Lib.ValueIdx

noncomputable section

open scoped BigOperators

namespace Cert.Proof.FlatScatterTake

open Idealize.ShloMosaic Idealize.ShloMosaic.ValueIdx

/-! ## Scatter-add into a flat array -/

/-- The dimension numbers of a scatter of R scalar updates into a flat array of N elements: no update
    window axes, the operand's one axis inserted and named by the one component of each start index,
    the index vector on axis 1 of the [R, 1] scatter indices. -/
abbrev flatScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The scatter-indices index at which update e reads the one component of its start index is [e, 0]. -/
theorem siIdx_flat {N R : Nat} (wf : ScatterDims.WF ⟨1, ![N]⟩ ⟨2, ![R, 1]⟩ ⟨1, ![R]⟩ [] [0] [0] 1)
    (e : (⟨1, ![R]⟩ : Shape).Idx) :
    (flatScatterDims N R wf).siIdx e ⟨List.idxOf (0 : Fin 1) (flatScatterDims N R wf).scatterDimsToOperandDims,
      List.idxOf_lt_length_iff.2 (List.mem_singleton.mpr rfl)⟩ = ix2 (e 0) (0 : Fin 1) := by
  funext b; refine Fin.ext ?_
  match b with
  | ⟨0, _⟩ => rfl
  | ⟨1, _⟩ => rfl

/-- The start of update e's (one-element) window on the operand's axis: its start index read signed. -/
theorem start_flat {N R w : Nat} (wf : ScatterDims.WF ⟨1, ![N]⟩ ⟨2, ![R, 1]⟩ ⟨1, ![R]⟩ [] [0] [0] 1)
    (idx : IVec ⟨2, ![R, 1]⟩ w) (e : (⟨1, ![R]⟩ : Shape).Idx) :
    (flatScatterDims N R wf).start e idx 0 = (idx (ix2 (e 0) (0 : Fin 1))).toInt := by
  unfold ScatterDims.start
  rw [dif_pos (show (0 : Fin 1) ∈ (flatScatterDims N R wf).scatterDimsToOperandDims from List.mem_singleton.mpr rfl),
    siIdx_flat wf e]
  rfl

/-- The operand's axis is inserted, so the window coordinate on it is 0. -/
theorem window_flat {N R : Nat} (wf : ScatterDims.WF ⟨1, ![N]⟩ ⟨2, ![R, 1]⟩ ⟨1, ![R]⟩ [] [0] [0] 1)
    (e : (⟨1, ![R]⟩ : Shape).Idx) :
    (flatScatterDims N R wf).window e 0 = 0 := by
  unfold ScatterDims.window
  rw [dif_neg]
  intro h
  have h' := (List.mem_filter.1 h).2
  simp at h'

/-- update e lands on element i exactly when its start index, read signed, is i -/
theorem resultIdx_flat_iff {N R w : Nat} (wf : ScatterDims.WF ⟨1, ![N]⟩ ⟨2, ![R, 1]⟩ ⟨1, ![R]⟩ [] [0] [0] 1)
    (idx : IVec ⟨2, ![R, 1]⟩ w) (e : (⟨1, ![R]⟩ : Shape).Idx) (i : Fin N) :
    (flatScatterDims N R wf).resultIdx? e idx = some (ix1 i) ↔
      (idx (ix2 (e 0) (0 : Fin 1))).toInt = (i.val : Int) := by
  have hs := start_flat wf idx e
  have hw := window_flat wf e
  have hi := i.isLt
  unfold ScatterDims.resultIdx?
  split
  · rename_i h
    have h0 := h 0
    rw [hs, hw] at h0
    rw [Option.some.injEq]
    constructor
    · intro hf
      have hv : ((flatScatterDims N R wf).start e idx 0 + ((flatScatterDims N R wf).window e 0 : Nat)).toNat = i.val :=
        congrArg Fin.val (congrFun hf 0)
      rw [hs, hw] at hv
      omega
    · intro he
      funext a
      obtain rfl : a = 0 := Subsingleton.elim _ _
      refine Fin.ext ?_
      show ((flatScatterDims N R wf).start e idx 0 + ((flatScatterDims N R wf).window e 0 : Nat)).toNat = i.val
      rw [hs, hw, he]
      omega
  · rename_i h
    constructor
    · intro hf
      exact absurd hf (by simp)
    · intro he
      exfalso
      apply h
      intro a
      obtain rfl : a = 0 := Subsingleton.elim _ _
      rw [hs, hw, he]
      have hsz : (⟨1, ![N]⟩ : Shape).size 0 = N := rfl
      rw [hsz]
      omega

/-- THE SCATTER-ADD READ AT ELEMENT i: the operand's element plus every update whose start index, read
    signed, is i. -/
theorem scatterAdd_flat_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (i : Fin N) :
    Ideal.hostScatterAdd (flatScatterDims N R wf) x idx upd (ix1 i)
      = x (ix1 i) + ∑ e : (⟨1, ![R]⟩ : Shape).Idx,
          if (idx (ix2 (e 0) (0 : Fin 1))).toInt = (i.val : Int) then upd e else 0 := by
  unfold Ideal.hostScatterAdd
  beta_reduce
  congr 1
  rw [Finset.sum_filter]
  exact Finset.sum_congr rfl fun e _ => if_congr (resultIdx_flat_iff wf idx e i) rfl rfl

/-- The same at a general index of the flat array, whose one coordinate is i 0. -/
theorem scatterAdd_flat_apply_idx {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (i : (⟨1, ![N]⟩ : Shape).Idx) :
    Ideal.hostScatterAdd (flatScatterDims N R wf) x idx upd i
      = x i + ∑ e : (⟨1, ![R]⟩ : Shape).Idx,
          if (idx (ix2 (e 0) (0 : Fin 1))).toInt = ((i 0).val : Int) then upd e else 0 := by
  obtain ⟨a, rfl⟩ : ∃ a : Fin N, i = ix1 a := ⟨i 0, eq_ix1 i⟩
  exact scatterAdd_flat_apply wf x idx upd a

/-! ## Gather from a flat table at a rank-4 array of start indices -/

section Take4
variable {α : Type}

/-- The dimension numbers of reading a flat table of N elements at an [A, B, C, D] array of indices, given
    as [A, B, C, D, 1] start indices: no offset axes, the table's one axis collapsed (slice size 1) and
    named by the one component of each start index, the index vector on axis 4. -/
abbrev take4Dims (N A B C D : Nat)
    (wf : GatherDims.WF ⟨1, ![N]⟩ ⟨5, ![A, B, C, D, 1]⟩ ⟨4, ![A, B, C, D]⟩ [] [0] [] [0] [] 4 ![1]) :
    GatherDims ⟨1, ![N]⟩ ⟨5, ![A, B, C, D, 1]⟩ ⟨4, ![A, B, C, D]⟩ where
  offsetDims := []
  collapsedSliceDims := [0]
  operandBatchingDims := []
  startIndicesBatchingDims := []
  startIndexMap := [0]
  indexVectorDim := 4
  sliceSizes := ![1]
  wf := wf

/-- The start-indices index [a, b, c, d, 0] of result index (a, b, c, d). -/
abbrev take4Idx {A B C D : Nat} (y : (⟨4, ![A, B, C, D]⟩ : Shape).Idx) : (⟨5, ![A, B, C, D, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => ⟨0, Nat.one_pos⟩

/-- The same index built from its five coordinates. -/
theorem take4Idx_eq_ix5 {A B C D : Nat} (y : (⟨4, ![A, B, C, D]⟩ : Shape).Idx) :
    take4Idx y = ix5 (y 0) (y 1) (y 2) (y 3) (0 : Fin 1) := by
  funext a
  match a with
  | ⟨0, _⟩ => rfl
  | ⟨1, _⟩ => rfl
  | ⟨2, _⟩ => rfl
  | ⟨3, _⟩ => rfl
  | ⟨4, _⟩ => rfl

/-- THE GATHER READ AT (a, b, c, d): the table at the start index idx[a, b, c, d, 0], read signed and
    clamped into [0, N - 1]. -/
theorem gather_take4_apply {N A B C D w : Nat} (hN : 0 < N)
    (wf : GatherDims.WF ⟨1, ![N]⟩ ⟨5, ![A, B, C, D, 1]⟩ ⟨4, ![A, B, C, D]⟩ [] [0] [] [0] [] 4 ![1])
    (x : (⟨1, ![N]⟩ : Shape).Idx → α) (idx : IVec ⟨5, ![A, B, C, D, 1]⟩ w)
    (y : (⟨4, ![A, B, C, D]⟩ : Shape).Idx) :
    Host.gather (take4Dims N A B C D wf) x idx y
      = x (ix1 ⟨min (idx (take4Idx y)).toInt.toNat (N - 1), by omega⟩) := by
  unfold Host.gather
  congr 1
  funext a
  obtain rfl : a = 0 := Subsingleton.elim _ _
  refine Fin.ext ?_
  show (take4Dims N A B C D wf).start y idx 0 + (take4Dims N A B C D wf).batchCoord y 0
    + (take4Dims N A B C D wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take4Dims N A B C D wf).startIndexMap from List.mem_singleton.mpr rfl)]
  have hsi : (take4Dims N A B C D wf).siIdx y ⟨List.idxOf (0 : Fin 1) (take4Dims N A B C D wf).startIndexMap,
      List.idxOf_lt_length_iff.2 (List.mem_singleton.mpr rfl)⟩ = take4Idx y := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

end Take4

/-! ## A start index already in range is its own clamp -/

/-- A word whose signed value lies in [0, N) clamps into [0, N - 1] to itself. -/
theorem clamp_of_range {w N : Nat} (k : BitVec w) (h0 : 0 ≤ k.toInt) (hN : k.toInt < (N : Int)) :
    min k.toInt.toNat (N - 1) = k.toInt.toNat := by
  omega

end Cert.Proof.FlatScatterTake

end
-- ==== Proof.ElemFacts.lean ====
/-
  Three facts about one element of the gradient-harmonised classification loss.

  (A) A bin is in range. The bin of an element is a 32-bit word clipped below by 0 and above by 99 with the
  signed maximum and minimum; whatever the word, the result read signed lies in 0 … 99.

  (B) A loss term of a finite logit is a real number. For a real logit r and a one-hot target t in {0, 1} the
  term max(r, 0) − r·t + log(1 + e^{0 − |r|}) is the real number of that name: every operation stays on the
  reals (1 + e^{−|r|} is positive, so its logarithm is the real logarithm).

  (C) The precondition makes every logit a real number. The precondition says that |x| < +∞ at every element,
  as the conjunction over all elements of the comparisons; an extended real whose absolute value is below +∞
  is neither −∞ nor +∞, so it is a real number.
-/
import proofs.«177161_j24644522344916_1_alg».proof.Proof.Spec
import proofs.«177161_j24644522344916_1_alg».proof.Proof.Gen.Pre_finite_inputs
import Idealize.ShloMosaic.Lib.ReduceAll
import Idealize.ShloMosaic.Lib.ValueIdx
import Idealize.ShloMosaic.PureOps.Ideal.Laws

noncomputable section

namespace Cert.Proof.ElemFacts

open Idealize.ShloMosaic Idealize.ShloMosaic.ValueIdx Cert.Proof.Spec

/-! ## (A) a bin is in range -/

/-- Clipping a word below by 0 and then above by 99, with the signed maximum and minimum, lands in 0 … 99. -/
theorem minsi_maxsi_range (v : BitVec 32) :
    0 ≤ (IntOp.minsi 99#32 (IntOp.maxsi 0#32 v)).toInt ∧ (IntOp.minsi 99#32 (IntOp.maxsi 0#32 v)).toInt < 100 := by
  have h99 : (99#32 : BitVec 32).toInt = 99 := by decide
  have h0 : (0#32 : BitVec 32).toInt = 0 := by decide
  unfold IntOp.minsi IntOp.maxsi
  split <;> split <;> simp only [BitVec.slt_iff_toInt_lt] at * <;> omega

/-- a bin is in range -/
theorem binOf_range (a t : EReal) : 0 ≤ (binOf a t).toInt ∧ (binOf a t).toInt < 100 :=
  minsi_maxsi_range _

/-! ## (B) a loss term of a finite logit is a real number -/

/-- The inclusion of the reals in the extended reals preserves the maximum. -/
theorem coe_max (x y : ℝ) : ((max x y : ℝ) : EReal) = max (x : EReal) (y : EReal) :=
  EReal.coe_strictMono.monotone.map_max

/-- For a real logit and a real target the loss term is the real number max(r, 0) − r·t + log(1 + e^{0 − |r|}),
    the absolute value written max(r, −r). -/
theorem bceOf_coe (r t : ℝ) :
    bceOf (r : EReal) (t : EReal)
      = ((max r 0 - r * t + Real.log (1 + Real.exp (0 - max r (-r))) : ℝ) : EReal) := by
  show max (r : EReal) (Ideal.ofBits .f32 0x00000000#32) - (r : EReal) * (t : EReal)
      + Ideal.log1p (Ideal.exp (Ideal.ofBits .f32 0x00000000#32 - max (r : EReal) (-(r : EReal)))) = _
  have hpos : (0 : ℝ) < 1 + Real.exp (0 - max r (-r)) := by positivity
  rw [Ideal.ofBits_zero_f32, ← EReal.coe_zero, ← EReal.coe_neg, ← coe_max, ← coe_max, ← EReal.coe_sub, Ideal.exp_coe,
    Ideal.log1p, ← EReal.coe_one, ← EReal.coe_add, Ideal.log_coe, if_neg (not_le.mpr hpos), ← EReal.coe_mul,
    ← EReal.coe_sub, ← EReal.coe_add]

/-- The one-hot target is the real number 0 or 1. -/
theorem hot_real (c : Nat) (lb : BitVec 1) (tg : BitVec 32) : ∃ t : ℝ, hot c lb tg = (t : EReal) := by
  unfold hot
  split
  · exact ⟨1, EReal.coe_one.symm⟩
  · exact ⟨0, EReal.coe_zero.symm⟩

/-- a loss term of a finite logit is a real number -/
theorem bceOf_real (r : ℝ) (c : Nat) (lb : BitVec 1) (tg : BitVec 32) :
    ∃ s : ℝ, bceOf (r : EReal) (hot c lb tg) = (s : EReal) := by
  obtain ⟨t, ht⟩ := hot_real c lb tg
  rw [ht]
  exact ⟨_, bceOf_coe r t⟩

/-! ## (C) the precondition makes every logit a real number -/

/-- The rank-0 shape has one index. -/
instance : Subsingleton Cert.Pre_finite_inputs.S_.Idx := ⟨fun _ _ => funext fun d => d.elim0⟩

/-- An extended real whose absolute value, max(x, −x), is below +∞ is a real number: −∞ and +∞ both have
    absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- the precondition makes every logit a real number -/
theorem real_of_pre (x0 : FVec Ideal Cert.Pre_finite_inputs.S8x19x512x512 .f32)
    (x1 : IVec Cert.Pre_finite_inputs.S8x512x512 32) (x2 : IVec Cert.Pre_finite_inputs.S8x512x512 1)
    (h : Cert.Pre_finite_inputs.fn (F := Ideal) x0 x1 x2 = fun _ => 1#1) :
    ∀ i, ∃ r : ℝ, x0 i = (r : EReal) := by
  intro i
  have h0 := congrFun h ix0
  dsimp only [Cert.Pre_finite_inputs.fn] at h0
  have hi := Host.reduce_andi_all _ _ _ _ _ h0 i
  have htop : Ideal.ofBits .f32 0x7F800000#32 = ⊤ := by simp [Ideal.ofBits, Ideal.ieee]
  have hi' : BitVec.ofBool (decide (max (x0 i) (-(x0 i)) < Ideal.ofBits .f32 0x7F800000#32)) = 1#1 := hi
  rw [htop] at hi'
  refine real_of_abs_lt_top _ ?_
  by_contra hn
  simp [hn] at hi'

end Cert.Proof.ElemFacts

end
-- ==== Proof.KTailValue.lean ====
/-
  The value of the host operations after the region, over the shared model.

  The region hands over one slot word and one masked loss term per element. A slot word is the element's bin
  (a number in 0 … 99) where the element's pixel counts and 100 where it does not, so read signed it lies in 0 … 100:
  it is not negative, the wrap-around of a negative index never applies, and the scatter index of an element is its slot
  word itself. Scattering a 1 per element into 101 zeros therefore counts, in slot j < 100, the counted elements of bin j,
  and scattering the masked loss terms sums those elements' loss terms (on a counted element the mask factor is 1); slot 100
  collects the rest and is cut off. So the two 100-slot histograms are the model's counts and loss sums; the number of
  non-empty bins and the sum over the bins of (loss sum) / max(count, 1) follow, and the result is that sum divided by
  the number of non-empty bins when there is one, and the sum itself otherwise, times the constant 1.
-/
import proofs.«177161_j24644522344916_1_alg».proof.Proof.KTailDef
import proofs.«177161_j24644522344916_1_alg».proof.Proof.Model
import proofs.«177161_j24644522344916_1_alg».proof.Proof.LibFlatScatterTake
import proofs.«177161_j24644522344916_1_alg».proof.Proof.ElemFacts
import Idealize.ShloMosaic.Lib.Pipeline.Value
import Idealize.ShloMosaic.PureOps.Ideal.Laws

noncomputable section

namespace Cert.Proof.KTail

open Finset Idealize.ShloMosaic Idealize.ShloMosaic.ValueIdx Cert.KernelIdeal Cert.Proof.Spec Cert.Proof.Model

variable (a0 : SE.Idx → EReal) (a1 : SX.Idx → BitVec 32) (lw : SX.Idx → BitVec 1)

/-! ## (1) The slot word of an element -/

/-- An element's slot word: its bin where its pixel counts, 100 elsewhere. -/
theorem slotArr_eq (p : SE.Idx) :
    slotArr a0 a1 lw p = Scalar.select (lw (pix p)) (binWord a0 a1 lw p) 100#32 := rfl

/-- A bin word read signed lies in 0 … 99. -/
theorem binWord_range (p : SE.Idx) :
    0 ≤ (binWord a0 a1 lw p).toInt ∧ (binWord a0 a1 lw p).toInt < 100 :=
  Cert.Proof.ElemFacts.binOf_range _ _

/-- A slot word read signed lies in 0 … 100. -/
theorem slot_range (p : SE.Idx) :
    0 ≤ (slotArr a0 a1 lw p).toInt ∧ (slotArr a0 a1 lw p).toInt ≤ 100 := by
  have hb := binWord_range a0 a1 lw p
  have h100 : (100#32 : BitVec 32).toInt = 100 := by decide
  rw [slotArr_eq]
  unfold Scalar.select
  split <;> omega

/-- A slot word is j < 100 exactly when the element counts and its bin is j. -/
theorem slot_eq_iff (p : SE.Idx) (j : Fin 100) :
    (slotArr a0 a1 lw p).toInt = (j.val : Int) ↔ valid lw p ∧ binJ a0 a1 lw p = ix1 j := by
  have hb := binWord_range a0 a1 lw p
  have h100 : (100#32 : BitVec 32).toInt = 100 := by decide
  have hj := j.isLt
  have hbin : binJ a0 a1 lw p = ix1 j ↔ min (binWord a0 a1 lw p).toInt.toNat 99 = j.val := by
    unfold binJ
    constructor
    · intro h
      exact congrArg (fun f : SJ.Idx => (f 0).val) h
    · intro h
      exact congrArg ix1 (Fin.ext h)
  rw [slotArr_eq, hbin]
  unfold valid Scalar.select
  rcases BitVec.eq_zero_or_eq_one (lw (pix p)) with h | h
  · rw [h, if_neg (show ¬ ((0#1 : BitVec 1) = 1) by decide)]
    constructor
    · intro h'; omega
    · rintro ⟨h', _⟩; exact absurd h' (by decide)
  · rw [h, if_pos (show (1#1 : BitVec 1) = 1 from rfl)]
    constructor
    · intro h'; exact ⟨rfl, by omega⟩
    · rintro ⟨_, h'⟩; omega

/-! ## (2) The scatter index of an element -/

/-- Flat position to element: the bijection of the reshape. -/
abbrev flatE : S39845888.Idx ≃ SE.Idx := Shape.reshapeEquiv Gen.shapeCasts_S8x19x512x512_S39845888

/-- The scatter index at flat position e: the slot word there, wrapped by 101 if it were negative. -/
theorem tailIdx_apply (o3 : IVec S8x19x512x512 32) (e : S39845888.Idx) :
    tailIdx o3 (ix2 (e 0) (0 : Fin 1))
      = Scalar.select (IntOp.cmpi .slt (o3 (flatE e)) 0#32) (IntOp.addi (o3 (flatE e)) 101#32) (o3 (flatE e)) := by
  have hk : ∀ a : Fin S39845888.rank, (e a).val
      = if S39845888.size a = 1 then 0
        else ((ix2 (e 0) (0 : Fin 1) : S39845888x1.Idx) ((![0] : Fin 1 → Fin S39845888x1.rank) a)).val := by
    intro a
    obtain rfl : a = 0 := Subsingleton.elim _ _
    rw [if_neg (show ¬ (S39845888.size 0 = 1) by decide)]
    rfl
  unfold tailIdx
  rw [broadcastInDim_apply _ _ _ _ e hk]
  rfl

/-- A slot word is not negative, so the scatter index of an element is its slot word. -/
theorem tailIdx_slot (e : S39845888.Idx) :
    tailIdx (slotArr a0 a1 lw) (ix2 (e 0) (0 : Fin 1)) = slotArr a0 a1 lw (flatE e) := by
  rw [tailIdx_apply]
  have h := (slot_range a0 a1 lw (flatE e)).1
  have h0 : (0#32 : BitVec 32).toInt = 0 := by decide
  have hn : ¬ ((slotArr a0 a1 lw (flatE e)).slt 0#32 = true) := by
    rw [BitVec.slt_iff_toInt_lt]; omega
  have hc : IntOp.cmpi .slt (slotArr a0 a1 lw (flatE e)) 0#32 = 0#1 := by
    unfold IntOp.cmpi
    simp [hn]
  rw [hc]
  exact select_zero _ _

/-! ## (3) The histograms -/

/-- The word of 1.0 is the extended real 1. -/
theorem oneWord_f32 : Ideal.ofBits .f32 0x3F800000#32 = 1 := by
  simp [Ideal.ofBits, Ideal.ieee, -EReal.coe_mul]; norm_num

/-- A sum over flat positions of terms picked by a condition is the sum over the elements that satisfy the matching
    condition, when the picked terms agree there: re-index along the bijection and collect the condition into a filter. -/
theorem sum_ite_reindex {ι κ : Type} [Fintype ι] [Fintype κ] (E : ι ≃ κ) (P : κ → Prop) [DecidablePred P]
    (f : κ → EReal) (Q : ι → Prop) [DecidablePred Q] (g : ι → EReal)
    (hQ : ∀ e, Q e ↔ P (E e)) (hg : ∀ e, P (E e) → g e = f (E e)) :
    ∑ e : ι, (if Q e then g e else 0) = ∑ p ∈ univ.filter P, f p :=
  calc ∑ e : ι, (if Q e then g e else 0)
      = ∑ e : ι, (if P (E e) then f (E e) else 0) :=
        Finset.sum_congr rfl fun e _ => if_ctx_congr (hQ e) (fun h => hg e h) (fun _ => rfl)
    _ = ∑ p : κ, (if P p then f p else 0) := Equiv.sum_comp E (fun p => if P p then f p else 0)
    _ = ∑ p ∈ univ.filter P, f p := (Finset.sum_filter P f).symm

/-- Slot j < 100 as a slot of the 101. -/
abbrev up (j : Fin 100) : Fin 101 := ⟨j.val, Nat.lt_succ_of_lt j.isLt⟩

/-- The accumulating scatter into the 101 slots, read at a slot: the operand's element there plus every update whose
    scatter index, read signed, is the slot. -/
theorem scatterAdd_tail_apply (x : FVec Ideal S101 .f32) (idx : IVec S39845888x1 32) (upd : FVec Ideal S39845888 .f32)
    (j' : Fin 101) :
    Host.scatterAdd scatter_S101_S39845888x1_S39845888_n_0_0_1 x idx upd (ix1 j')
      = x (ix1 j') + ∑ e : S39845888.Idx,
          if (idx (ix2 (e 0) (0 : Fin 1))).toInt = (j'.val : Int) then upd e else 0 :=
  Cert.Proof.FlatScatterTake.scatterAdd_flat_apply scatter_S101_S39845888x1_S39845888_n_0_0_1.wf x idx upd j'

/-- Into zeros: just the sum. -/
theorem scatterAdd_zero_apply (idx : IVec S39845888x1 32) (upd : FVec Ideal S39845888 .f32) (j' : Fin 101) :
    Host.scatterAdd scatter_S101_S39845888x1_S39845888_n_0_0_1
        (broadcastInDim S101 ![] Gen.bcast_S_S101 (constant S_ .f32 0x00000000#32)) idx upd (ix1 j')
      = ∑ e : S39845888.Idx, if (idx (ix2 (e 0) (0 : Fin 1))).toInt = (j'.val : Int) then upd e else 0 := by
  rw [scatterAdd_tail_apply]
  show Ideal.ofBits .f32 0x00000000#32 + _ = _
  rw [Ideal.ofBits_zero_f32, zero_add]

/-- Slots 0 … 99 of a 101-slot array, read at slot j. -/
theorem slice_apply (x : FVec Ideal S101 .f32) (j : Fin 100) :
    extractStridedSlice S100 ![0] x Gen.slices_S101_S100_0 (ix1 j) = x (ix1 (up j)) := by
  refine extractStridedSlice_apply _ _ _ _ _ (fun a => ?_)
  obtain rfl : a = 0 := Subsingleton.elim _ _
  show j.val = 0 + j.val
  omega

/-- THE COUNTS: slot j < 100 of the count histogram is the number of counted elements of bin j. -/
theorem tailCnt_slot (j : Fin 100) : tailCnt (slotArr a0 a1 lw) (ix1 j) = cntM a0 a1 lw (ix1 j) := by
  unfold tailCnt tailCnt101
  rw [slice_apply, scatterAdd_zero_apply]
  unfold cntM
  refine sum_ite_reindex flatE (fun p => valid lw p ∧ binJ a0 a1 lw p = ix1 j) (fun _ => (1 : EReal)) _ _
    (fun e => ?_) (fun e _ => ?_)
  · rw [tailIdx_slot]
    exact slot_eq_iff a0 a1 lw (flatE e) j
  · exact oneWord_f32

/-- THE LOSS SUMS: slot j < 100 of the loss histogram is the sum of the loss terms of the counted elements of bin j. -/
theorem tailLoss_slot (j : Fin 100) :
    tailLoss (slotArr a0 a1 lw) (lossArr a0 a1 lw) (ix1 j) = lossM a0 a1 lw (ix1 j) := by
  unfold tailLoss tailLoss101
  rw [slice_apply, scatterAdd_zero_apply]
  unfold lossM
  refine sum_ite_reindex flatE (fun p => valid lw p ∧ binJ a0 a1 lw p = ix1 j) (lossAt a0 a1 lw) _ _
    (fun e => ?_) (fun e he => ?_)
  · rw [tailIdx_slot]
    exact slot_eq_iff a0 a1 lw (flatE e) j
  · show lossArr a0 a1 lw (flatE e) = lossAt a0 a1 lw (flatE e)
    have hv : lw (pix (flatE e)) = 1#1 := he.1
    show bceOf (a0 (flatE e)) (hot ((flatE e) 1).val (lw (pix (flatE e))) (a1 (pix (flatE e)))) * maskOf (lw (pix (flatE e)))
      = lossAt a0 a1 lw (flatE e)
    rw [show maskOf (lw (pix (flatE e))) = 1 by rw [hv]; exact if_pos rfl, mul_one]
    rfl

/-! ## (4) The number of non-empty bins, (5) the sum over the bins, (6) the result -/

/-- The count histogram, as a whole array, is the model's. -/
theorem tailCnt_eq : tailCnt (slotArr a0 a1 lw) = cntM a0 a1 lw := by
  funext j
  obtain ⟨a, rfl⟩ : ∃ a : Fin 100, j = ix1 a := ⟨j 0, eq_ix1 j⟩
  exact tailCnt_slot a0 a1 lw a

/-- The loss histogram, as a whole array, is the model's. -/
theorem tailLoss_eq : tailLoss (slotArr a0 a1 lw) (lossArr a0 a1 lw) = lossM a0 a1 lw := by
  funext j
  obtain ⟨a, rfl⟩ : ∃ a : Fin 100, j = ix1 a := ⟨j 0, eq_ix1 j⟩
  exact tailLoss_slot a0 a1 lw a

/-- The number of non-empty bins is the model's, computed the same way from the same counts. -/
theorem tailN_value : tailN (slotArr a0 a1 lw) ix0 = nOf (cntM a0 a1 lw) := by
  unfold tailN
  rw [tailCnt_eq]
  rfl

/-- The sum over the bins of (loss sum) / max(count, 1). -/
theorem tailS_value :
    tailS (slotArr a0 a1 lw) (lossArr a0 a1 lw) ix0
      = ∑ j : SJ.Idx, Ideal.div (lossM a0 a1 lw j) (max (cntM a0 a1 lw j) 1) := by
  unfold tailS
  rw [tailCnt_eq, tailLoss_eq]
  show Ideal.hostReduceAdd Gen.reducesTo_S100_S_d0 _ (Ideal.ofBits .f32 0x00000000#32) ix0 = _
  rw [Ideal.hostReduceAdd_total _ (fun b => b.elim0), Ideal.ofBits_zero_f32, zero_add]
  refine Finset.sum_congr rfl fun j _ => ?_
  show Ideal.div (lossM a0 a1 lw j) (max (cntM a0 a1 lw j) (Ideal.ofBits .f32 0x3F800000#32)) = _
  rw [oneWord_f32]

/-- A select on the comparison "n > 0" is the case distinction on 0 < n. -/
theorem select_ogt_zero (n A B : EReal) :
    Scalar.select (Ideal.cmp .ogt n 0) A B = if (0 : EReal) < n then A else B := by
  unfold Scalar.select Ideal.cmp
  by_cases h : (0 : EReal) < n
  · simp [h]
  · simp [h]

/-- THE RESULT: the sum over the bins divided by the number of non-empty bins when there is one, the sum itself
    otherwise, times the constant 1. -/
theorem tail_value :
    tail (slotArr a0 a1 lw) (lossArr a0 a1 lw) ix0
      = (if (0 : EReal) < nOf (cntM a0 a1 lw)
          then Ideal.div (∑ j : SJ.Idx, Ideal.div (lossM a0 a1 lw j) (max (cntM a0 a1 lw j) 1)) (nOf (cntM a0 a1 lw))
          else ∑ j : SJ.Idx, Ideal.div (lossM a0 a1 lw j) (max (cntM a0 a1 lw j) 1))
        * Ideal.ofBits .f32 0x3F800000#32 := by
  unfold tail
  show Scalar.select (Ideal.cmp .ogt (tailN (slotArr a0 a1 lw) ix0) (Ideal.ofBits .f32 0x00000000#32))
        (Ideal.div (tailS (slotArr a0 a1 lw) (lossArr a0 a1 lw) ix0) (tailN (slotArr a0 a1 lw) ix0))
        (tailS (slotArr a0 a1 lw) (lossArr a0 a1 lw) ix0) * Ideal.ofBits .f32 0x3F800000#32 = _
  rw [tailN_value, tailS_value, Ideal.ofBits_zero_f32, select_ogt_zero]

end Cert.Proof.KTail

end
-- ==== Proof.RefValue.lean ====
/-
  The reference program's result as a formula over the shared model.

  The reference works in the channel-last layout (batch, row, column, channel); the model indexes elements channel-major, and
  `toSE` is the bijection between the two. Read at an index `q` of the channel-last layout, each stage of the reference is
  an element function of the model at `toSE q`: the transposed logits are `a0 (toSE q)`, the one-hot target is `hotAt`, the
  mask as a number is 1 on valid elements and 0 elsewhere, the clipped bin word is `binWord`, the loss term is `lossAt`.

  The histogram is a scatter-add of the 0/1 flags at the bin words: bin `j` receives the flag of every element whose bin is
  `j`, so it is `cntR j`, the number of valid elements in bin `j` (the flat list of updates is the channel-last array in
  row-major order, and a sum over the one is the sum over the other). A bin word lies in 0 … 99, so the "add 100 if negative"
  normalisation of an index keeps it, and the gather that reads the histogram back at each element's bin reads `cntR` at
  that bin. The total `totR` is the number of valid elements, at least 1; the number `n` of non-empty bins is `nOf cntR`.
  An element's weight is `tot / max (cnt at its bin) 1` where it is valid and 0 elsewhere, divided by `n` when `n > 0`; the
  result is the sum of loss term times weight, divided by `tot`, times the constant 1.
-/
import proofs.«177161_j24644522344916_1_alg».proof.Proof.RefReadPatched
import proofs.«177161_j24644522344916_1_alg».proof.Proof.Model
import proofs.«177161_j24644522344916_1_alg».proof.Proof.LibFlatScatterTake
import Idealize.ShloMosaic.Lib.IdealHost

noncomputable section

namespace Cert.Proof.RefValue

open Finset Idealize.ShloMosaic Idealize.ShloMosaic.ValueIdx Cert.Proof.Spec Cert.Proof.Model
open Cert.ReferenceIdeal Cert.ReferenceIdeal.Gen Cert.ReferenceIdeal.ReadP Cert.Proof.FlatScatterTake

variable (a0 : SE.Idx → EReal) (a1 : SX.Idx → BitVec 32) (lw : SX.Idx → BitVec 1)

/-! ## The element stages, read at an index of the channel-last layout -/

/-- the transpose: the channel-last array reads the channel-major one along the bijection -/
theorem v4_eq (q : SR.Idx) : val_main_v4 (F := Ideal) a0 q = a0 (toSE q) := by
  rw [val_main_v4_apply]
  congr 1
  funext a
  match a with
  | ⟨0, _⟩ => rfl
  | ⟨1, _⟩ => rfl
  | ⟨2, _⟩ => rfl
  | ⟨3, _⟩ => rfl

/-- the mask bit, broadcast along the channel axis -/
theorem v3_eq (q : SR.Idx) : val_main_v3 (F := Ideal) lw q = lw (pix (toSE q)) := by
  rw [val_main_v3_apply, val_main_v2_apply]
  congr 1
  funext a
  match a with
  | ⟨0, _⟩ => rfl
  | ⟨1, _⟩ => rfl
  | ⟨2, _⟩ => rfl

/-- the flag as a number -/
theorem v13_eq (q : SR.Idx) :
    val_main_v13 (F := Ideal) lw q = (if valid lw (toSE q) then (1 : EReal) else 0) := by
  rw [val_main_v13_apply, v3_eq, uitofp_bit]
  rfl

/-- the equality test of two words, as a number -/
theorem maskOf_cmpi_eq (x y : BitVec 32) :
    maskOf (IntOp.cmpi .eq x y) = if y = x then (1 : EReal) else 0 := by
  have hc : IntOp.cmpi .eq x y = BitVec.ofBool (x == y) := rfl
  rw [hc]
  unfold maskOf
  by_cases h : x = y
  · subst h; simp
  · have h' : ¬ y = x := fun e => h e.symm
    have hb : (x == y) = false := beq_eq_false_iff_ne.mpr h
    rw [hb, if_neg h', if_neg (by decide)]

/-- the one-hot target -/
theorem v1_eq (q : SR.Idx) : val_main_v1 (F := Ideal) a1 lw q = hotAt a1 lw (toSE q) := by
  have hp : idx_main_call1_v0 (idx_main_call1_v2 q) = pix (toSE q) := by
    funext a
    match a with
    | ⟨0, _⟩ => rfl
    | ⟨1, _⟩ => rfl
    | ⟨2, _⟩ => rfl
  rw [val_main_v1_apply, val_main_call1_v4_apply, val_main_call1_v2_apply, val_main_call1_v0_apply,
    val_main_v0_apply, val_main_call0_v1_apply, val_main_call0_v0_apply, val_main_c_apply,
    val_main_call1_v3_apply, val_main_call1_v1_apply, uitofp_bit, maskOf_cmpi_eq, hp]
  rfl

/-- the bin word -/
theorem v20_eq (q : SR.Idx) : val_main_v20 (F := Ideal) a0 a1 lw q = binWord a0 a1 lw (toSE q) := by
  simp only [val_main_v20_apply, val_main_call2_v4_apply, val_main_call2_v3_apply, val_main_c_5_apply,
    val_main_call2_v2_apply, val_main_call2_v1_apply, val_main_call2_v0_apply, val_main_c_4_apply,
    val_main_v19_apply, val_main_v18_apply, val_main_v17_apply, val_main_v16_apply, val_main_cst_3_apply,
    val_main_v12_apply, val_main_v11_apply, val_main_v10_apply, val_main_v9_apply, val_main_cst_0_apply,
    val_main_v8_apply, val_main_v7_apply, val_main_cst_apply, val_main_v6_apply, val_main_v5_apply,
    v4_eq, v1_eq, Ideal.ofBits_def, Ideal.ofBits_one_f32]
  rfl

/-- the loss term with its constants evaluated: max(a, 0) − a·t + log(1 + e^{−|a|}) -/
theorem bceOf_eq (a t : EReal) :
    bceOf a t = (max a (Ideal.ofBits .f32 0x00000000#32) - a * t) + Ideal.log1p (Ideal.exp (-(max a (-a)))) := by
  show (max a (Ideal.ofBits .f32 0x00000000#32) - a * t)
      + Ideal.log1p (Ideal.exp (Ideal.ofBits .f32 0x00000000#32 - max a (-a))) = _
  rw [Ideal.ofBits_zero_f32, zero_sub]

/-- the loss term -/
theorem v60_eq (q : SR.Idx) : val_main_v60 (F := Ideal) a0 a1 lw q = lossAt a0 a1 lw (toSE q) := by
  simp only [val_main_v60_apply, val_main_v59_apply, val_main_v58_apply, val_main_v57_apply,
    val_main_v56_apply, val_main_v55_apply, val_main_v54_apply, val_main_v53_apply, val_main_v52_apply,
    val_main_cst_16_apply, v4_eq, v1_eq]
  rw [lossAt, bceOf_eq]
  rfl

/-! ## The histogram, the total, and the number of non-empty bins -/

/-- the histogram as the reference builds it: over the channel-last layout, adding each element's 0/1 flag at its bin -/
def cntR (j : SJ.Idx) : EReal :=
  ∑ q ∈ univ.filter (fun q : SR.Idx => binJ a0 a1 lw (toSE q) = j), (if valid lw (toSE q) then (1 : EReal) else 0)
/-- the number of valid elements, at least one -/
def totR : EReal := max (∑ q : SR.Idx, if valid lw (toSE q) then (1 : EReal) else 0) 1
/-- an element's weight before the division by the number of non-empty bins -/
def w0R (q : SR.Idx) : EReal :=
  if valid lw (toSE q) then Ideal.div (totR lw) (max (cntR a0 a1 lw (binJ a0 a1 lw (toSE q))) 1) else 0

/-- the total -/
theorem v15_eq (i : S_.Idx) : val_main_v15 (F := Ideal) lw i = totR lw := by
  rw [val_main_v15_apply, val_main_v14_apply, val_main_cst_1_apply, val_main_cst_2_apply]
  simp only [Ideal.maximumf_def, Ideal.ofBits_def, Ideal.ofBits_zero_f32, Ideal.ofBits_one_f32, zero_add]
  have hs : (∑ j : S8x512x512x19.Idx, val_main_v13 (F := Ideal) lw j)
      = ∑ q : SR.Idx, if valid lw (toSE q) then (1 : EReal) else 0 :=
    Finset.sum_congr rfl (fun q _ => v13_eq lw q)
  rw [hs]
  rfl

/-- a bin word that is not negative is kept by "add 100 if negative" -/
theorem sel_of_nonneg (v : BitVec 32) (h0 : 0 ≤ v.toInt) :
    Scalar.select (IntOp.cmpi .slt v 0#32) (IntOp.addi v 100#32) v = v := by
  have hs : v.slt 0#32 = false := by
    unfold BitVec.slt
    simp only [BitVec.toInt_zero]
    exact decide_eq_false (by omega)
  have hc : IntOp.cmpi .slt v 0#32 = BitVec.ofBool (v.slt 0#32) := rfl
  rw [hc, hs]
  exact select_zero _ _

/-- a word in 0 … 99 is the bin index j exactly when its signed value is j -/
theorem word_iff (v : BitVec 32) (h0 : 0 ≤ v.toInt) (h1 : v.toInt < 100) (j : SJ.Idx) :
    v.toInt = ((j 0).val : Int) ↔ (ix1 (n := 100) ⟨min v.toInt.toNat 99, by omega⟩ : SJ.Idx) = j := by
  constructor
  · intro h
    rw [eq_ix1 j]
    congr 1
    apply Fin.ext
    show min v.toInt.toNat 99 = (j 0).val
    omega
  · intro h
    have h2 : min v.toInt.toNat 99 = (j 0).val := congrArg (fun i : SJ.Idx => (i 0).val) h
    omega

/-! ## The histogram: a scatter-add over the flat list of elements -/

/-- what element `q` of the channel-last layout adds to bin `j`: its 0/1 flag when its (normalised) bin word is `j` -/
def updR (j : SJ.Idx) (q : SR.Idx) : EReal :=
  if (Scalar.select (IntOp.cmpi .slt (val_main_v20 (F := Ideal) a0 a1 lw q) 0#32)
        (IntOp.addi (val_main_v20 (F := Ideal) a0 a1 lw q) 100#32)
        (val_main_v20 (F := Ideal) a0 a1 lw q)).toInt = ((j 0).val : Int)
  then val_main_v13 (F := Ideal) lw q else 0

/-- one update of the scatter, read at the element of the channel-last layout it comes from -/
theorem flat_term (j : SJ.Idx) (e : S39845888.Idx) :
    (if (val_main_v29 (F := Ideal) a0 a1 lw (ix2 (e 0) (0 : Fin 1))).toInt = ((j 0).val : Int)
        then val_main_v23 (F := Ideal) lw e else 0)
      = updR a0 a1 lw j (Shape.reshapeEquiv shapeCasts_S8x512x512x19_S39845888 e) := by
  have he : idx_main_v29 (ix2 (e 0) (0 : Fin 1)) = e := by
    funext a
    match a with
    | ⟨0, _⟩ => rfl
  rw [val_main_v29_apply, he, val_main_v28_apply, val_main_v25_apply, val_main_v27_apply, val_main_v24_apply,
    val_main_v26_apply, val_main_c_7_apply, val_main_c_8_apply]
  rfl

/-- the flat list of updates is the channel-last array in row-major order: a sum over the one is the sum over the other -/
theorem flat_sum (j : SJ.Idx) :
    (∑ e : S39845888.Idx,
        if (val_main_v29 (F := Ideal) a0 a1 lw (ix2 (e 0) (0 : Fin 1))).toInt = ((j 0).val : Int)
          then val_main_v23 (F := Ideal) lw e else 0)
      = ∑ q : SR.Idx, updR a0 a1 lw j q :=
  (Finset.sum_congr rfl (fun e _ => flat_term a0 a1 lw j e)).trans
    (Equiv.sum_comp (Shape.reshapeEquiv shapeCasts_S8x512x512x19_S39845888) (updR a0 a1 lw j))

/-- the histogram -/
theorem v30_eq (hrange : ∀ a t : EReal, 0 ≤ (binOf a t).toInt ∧ (binOf a t).toInt < 100) (j : SJ.Idx) :
    val_main_v30 (F := Ideal) a0 a1 lw j = cntR a0 a1 lw j := by
  have h1 : val_main_v30 (F := Ideal) a0 a1 lw
      = Ideal.hostScatterAdd (flatScatterDims 100 39845888 scatter_S100_S39845888x1_S39845888_n_0_0_1_wf)
          (val_main_v21 (F := Ideal)) (val_main_v29 (F := Ideal) a0 a1 lw) (val_main_v23 (F := Ideal) lw) := rfl
  rw [h1, scatterAdd_flat_apply_idx, val_main_v21_apply, val_main_cst_6_apply, Ideal.ofBits_def,
    Ideal.ofBits_zero_f32, zero_add, flat_sum]
  unfold cntR
  rw [Finset.sum_filter]
  refine Finset.sum_congr rfl fun q _ => ?_
  have hr : 0 ≤ (binWord a0 a1 lw (toSE q)).toInt ∧ (binWord a0 a1 lw (toSE q)).toInt < 100 := hrange _ _
  unfold updR
  rw [v20_eq, v13_eq, sel_of_nonneg _ hr.1]
  exact if_congr (word_iff _ hr.1 hr.2 j) rfl rfl

/-- the number of non-empty bins -/
theorem v35_eq (hrange : ∀ a t : EReal, 0 ≤ (binOf a t).toInt ∧ (binOf a t).toInt < 100) (i : S_.Idx) :
    val_main_v35 (F := Ideal) a0 a1 lw i = nOf (cntR a0 a1 lw) := by
  have h30 : val_main_v30 (F := Ideal) a0 a1 lw = cntR a0 a1 lw := funext (v30_eq a0 a1 lw hrange)
  obtain rfl : i = ix0 := eq_ix0 i
  unfold val_main_v35 val_main_v34 val_main_v33 val_main_v32
  rw [h30]
  rfl

/-! ## The histogram read back at each element's bin -/

/-- the gather -/
theorem v42_eq (hrange : ∀ a t : EReal, 0 ≤ (binOf a t).toInt ∧ (binOf a t).toInt < 100) (q : SR.Idx) :
    val_main_v42 (F := Ideal) a0 a1 lw q = cntR a0 a1 lw (binJ a0 a1 lw (toSE q)) := by
  have h1 : val_main_v42 (F := Ideal) a0 a1 lw
      = Host.gather (take4Dims 100 8 512 512 19 gather_S100_S8x512x512x19x1_S8x512x512x19_n_0_n_n_0_4_1_wf)
          (val_main_v30 (F := Ideal) a0 a1 lw) (val_main_v41 (F := Ideal) a0 a1 lw) := rfl
  have hq : idx_main_v41 (take4Idx q) = q := by
    funext a
    match a with
    | ⟨0, _⟩ => rfl
    | ⟨1, _⟩ => rfl
    | ⟨2, _⟩ => rfl
    | ⟨3, _⟩ => rfl
  have hr : 0 ≤ (binWord a0 a1 lw (toSE q)).toInt ∧ (binWord a0 a1 lw (toSE q)).toInt < 100 := hrange _ _
  have hw : val_main_v41 (F := Ideal) a0 a1 lw (take4Idx q) = binWord a0 a1 lw (toSE q) := by
    rw [val_main_v41_apply, hq, val_main_v40_apply, val_main_v37_apply, val_main_v39_apply, val_main_v36_apply,
      val_main_v38_apply, val_main_c_11_apply, val_main_c_12_apply, v20_eq, sel_of_nonneg _ hr.1]
  rw [h1, gather_take4_apply (by norm_num), v30_eq a0 a1 lw hrange]
  refine congrArg (cntR a0 a1 lw) ?_
  unfold binJ
  refine congrArg (ix1 (n := 100)) (Fin.ext ?_)
  show min (val_main_v41 (F := Ideal) a0 a1 lw (take4Idx q)).toInt.toNat (100 - 1)
    = min (binWord a0 a1 lw (toSE q)).toInt.toNat 99
  rw [hw]

/-! ## The weights and the result -/

/-- the weight before the division by the number of non-empty bins -/
theorem v47_eq (hrange : ∀ a t : EReal, 0 ≤ (binOf a t).toInt ∧ (binOf a t).toInt < 100) (q : SR.Idx) :
    val_main_v47 (F := Ideal) a0 a1 lw q = w0R a0 a1 lw q := by
  rw [val_main_v47_apply, v3_eq, val_main_v46_apply, val_main_v45_apply, v15_eq, val_main_v44_apply,
    v42_eq a0 a1 lw hrange, val_main_v43_apply, val_main_cst_13_apply, val_main_call3_v1_apply,
    val_main_call3_v0_apply, val_main_cst_14_apply]
  simp only [Ideal.hostDivf_def, Ideal.maximumf_def, Ideal.ofBits_def, Ideal.ofBits_one_f32, Ideal.ofBits_zero_f32]
  rfl

/-- the test "the number of non-empty bins is positive", as a bit -/
theorem v48_eq (hrange : ∀ a t : EReal, 0 ≤ (binOf a t).toInt ∧ (binOf a t).toInt < 100) (i : S_.Idx) :
    val_main_v48 (F := Ideal) a0 a1 lw i = BitVec.ofBool (decide ((0 : EReal) < nOf (cntR a0 a1 lw))) := by
  rw [val_main_v48_apply, v35_eq a0 a1 lw hrange, val_main_cst_15_apply]
  simp only [Ideal.ofBits_def, Ideal.ofBits_zero_f32]
  rfl

/-- the weight: divided by the number of non-empty bins when that is positive -/
theorem v51_eq (hrange : ∀ a t : EReal, 0 ≤ (binOf a t).toInt ∧ (binOf a t).toInt < 100) (q : SR.Idx) :
    val_main_v51 (F := Ideal) a0 a1 lw q
      = (if (0 : EReal) < nOf (cntR a0 a1 lw) then Ideal.div (w0R a0 a1 lw q) (nOf (cntR a0 a1 lw))
          else w0R a0 a1 lw q) := by
  unfold val_main_v51
  rw [select_apply, broadcastInDim_scalar_apply, v48_eq a0 a1 lw hrange, val_main_v50_apply,
    v47_eq a0 a1 lw hrange, val_main_v49_apply, v35_eq a0 a1 lw hrange]
  simp only [Ideal.hostDivf_def]
  by_cases hn : (0 : EReal) < nOf (cntR a0 a1 lw)
  · rw [if_pos hn, decide_eq_true hn]
    exact select_one _ _
  · rw [if_neg hn, decide_eq_false hn]
    exact select_zero _ _

/-- THE REFERENCE'S RESULT: the sum over the elements of loss term times weight, divided by the total, times the
    constant 1. -/
theorem ref_value (hrange : ∀ a t : EReal, 0 ≤ (binOf a t).toInt ∧ (binOf a t).toInt < 100) :
    Cert.ReferenceIdeal.ReadP.val_main_v64 (F := Ideal) a0 a1 lw ix0
      = Ideal.div (∑ q : SR.Idx, lossAt a0 a1 lw (toSE q) *
          (if (0 : EReal) < nOf (cntR a0 a1 lw) then Ideal.div (w0R a0 a1 lw q) (nOf (cntR a0 a1 lw)) else w0R a0 a1 lw q)) (totR lw)
        * Ideal.ofBits .f32 0x3F800000#32 := by
  have hs : (∑ j : S8x512x512x19.Idx, val_main_v61 (F := Ideal) a0 a1 lw j)
      = ∑ q : SR.Idx, lossAt a0 a1 lw (toSE q) *
          (if (0 : EReal) < nOf (cntR a0 a1 lw) then Ideal.div (w0R a0 a1 lw q) (nOf (cntR a0 a1 lw)) else w0R a0 a1 lw q) :=
    Finset.sum_congr rfl (fun q _ => by
      rw [val_main_v61_apply, v60_eq, v51_eq a0 a1 lw hrange]
      rfl)
  rw [val_main_v64_apply, val_main_v63_apply, val_main_v62_apply, val_main_cst_17_apply, val_main_cst_18_apply,
    v15_eq, hs]
  simp only [Ideal.mulf_def, Ideal.hostDivf_def, Ideal.ofBits_def, Ideal.ofBits_zero_f32, zero_add]

end Cert.Proof.RefValue

end
-- ==== Proof.LibBinnedMean.lean ====
import Mathlib
import Idealize.ShloMosaic.PureOps.Ideal

/-
# A binned mean computed two ways

A finite set `P` of elements; each element `p` has a flag `valid p`, a bin `bin p` in a finite
set `J`, and a real number `bce p`.  Write
  `c j = #{p | valid p ∧ bin p = j}`   and   `b j = ∑ {p | valid p ∧ bin p = j}, bce p`.

The first computation forms `S = ∑ j, b j / max (c j) 1`, then `S / n` when `0 < n` and `S` otherwise.

The second forms `tot = max #{p | valid p} 1`, gives every element the weight
  `w₀ p = tot / max (c (bin p)) 1` when `valid p`, and `0` otherwise,
  `w p = w₀ p / n` when `0 < n`, and `w₀ p` otherwise,
and returns `(∑ p, bce p * w p) / tot`.  Its elements are indexed by a second finite type `Q`
through a bijection `σ : Q ≃ P`.

All quotients are the total division `Ideal.div` on the extended reals.  Every divisor that occurs
is the image of a real number that is nonzero (`max _ 1 ≥ 1`, or `n > 0`), and every dividend is
the image of a real number, so each quotient is the image of a real quotient and the claim becomes
an identity between real numbers:

  `(∑ j, b j / m j) / d = (∑ p, bce p * ((if valid p then T / m (bin p) else 0) / d)) / T`

with `m j = max (c j) 1`, `T = tot ≠ 0`, and `d = n` or `d = 1`.  On the right the factor `T` cancels
and `1 / d` comes out of the sum; what is left is the regrouping of a sum over the valid elements
by bin: `∑ {p | valid p}, bce p / m (bin p) = ∑ j, (∑ {p | valid p ∧ bin p = j}, bce p) / m j`.
-/

noncomputable section

namespace Cert.Proof.BinnedMean

open Finset
open Idealize.ShloMosaic

variable {P Q J : Type} [Fintype P] [Fintype Q] [Fintype J] [DecidableEq J]

/-- The image of a finite real sum is the sum of the images. -/
private theorem ereal_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals is monotone, so it commutes with `max`. -/
private theorem ereal_coe_max (x y : ℝ) : ((max x y : ℝ) : EReal) = max (x : EReal) (y : EReal) :=
  EReal.coe_strictMono.monotone.map_max

/-- A quotient of two reals with nonzero divisor is the image of the real quotient. -/
private theorem div_real (x y : ℝ) (h : y ≠ 0) :
    Ideal.div (x : EReal) (y : EReal) = ((x / y : ℝ) : EReal) := by
  rw [Ideal.div_coe h, ← EReal.coe_mul, mul_one_div]

/-- the count of a bin, as a filtered count over P and as a sum of 0/1 flags over the other layout Q -/
theorem count_eq (σ : Q ≃ P) (valid : P → Prop) [DecidablePred valid] (bin : P → J) (j : J) :
    (∑ p ∈ univ.filter (fun p => valid p ∧ bin p = j), (1 : EReal))
      = ∑ q ∈ univ.filter (fun q => bin (σ q) = j), (if valid (σ q) then (1 : EReal) else 0) := by
  rw [Finset.sum_filter, Finset.sum_filter,
    ← Equiv.sum_comp σ (fun p => if valid p ∧ bin p = j then (1 : EReal) else 0)]
  refine Finset.sum_congr rfl fun q _ => ?_
  by_cases hv : valid (σ q) <;> by_cases hb : bin (σ q) = j <;> simp [hv, hb]

/-- Regrouping by bin: the per-bin sums divided by the per-bin divisor add up to the sum, over the
    valid elements, of each element's value divided by its own bin's divisor. -/
private theorem real_core (valid : P → Prop) [DecidablePred valid] (bin : P → J) (bce : P → ℝ)
    (m : J → ℝ) :
    ∑ j, (∑ p ∈ univ.filter (fun p => valid p ∧ bin p = j), bce p) / m j
      = ∑ p, if valid p then bce p / m (bin p) else 0 := by
  rw [← Finset.sum_filter, ← Finset.sum_fiberwise (univ.filter valid) bin]
  refine Finset.sum_congr rfl fun j _ => ?_
  rw [Finset.sum_div, Finset.filter_filter]
  refine Finset.sum_congr rfl fun p hp => ?_
  rw [(Finset.mem_filter.1 hp).2.2]

/-- The identity between real numbers: the total `T ≠ 0` cancels, `1 / d` comes out of the sum,
    the sum over `Q` is the sum over `P` along `σ`, and the rest is the regrouping by bin. -/
private theorem real_eq (σ : Q ≃ P) (valid : P → Prop) [DecidablePred valid] (bin : P → J)
    (bce : P → ℝ) (m : J → ℝ) (T d : ℝ) (hT : T ≠ 0) :
    (∑ j, (∑ p ∈ univ.filter (fun p => valid p ∧ bin p = j), bce p) / m j) / d
      = (∑ q, bce (σ q) * ((if valid (σ q) then T / m (bin (σ q)) else 0) / d)) / T := by
  rw [Equiv.sum_comp σ (fun p => bce p * ((if valid p then T / m (bin p) else 0) / d)),
    real_core valid bin bce m]
  have h : ∀ p, bce p * ((if valid p then T / m (bin p) else 0) / d)
      = (T / d) * (if valid p then bce p / m (bin p) else 0) := by
    intro p
    split_ifs
    · ring
    · simp
  rw [Finset.sum_congr rfl fun p _ => h p, ← Finset.mul_sum]
  field_simp

/-- The two computations of the binned mean agree. -/
theorem binned_mean_eq (σ : Q ≃ P) (valid : P → Prop) [DecidablePred valid] (bin : P → J) (bce : P → ℝ) (n : ℝ)
    (cnt : J → EReal) (hcnt : ∀ j, cnt j = ∑ p ∈ univ.filter (fun p => valid p ∧ bin p = j), (1 : EReal))
    (bs : J → EReal) (hbs : ∀ j, bs j = ∑ p ∈ univ.filter (fun p => valid p ∧ bin p = j), ((bce p : ℝ) : EReal))
    (tot : EReal) (htot : tot = max (∑ q : Q, if valid (σ q) then (1 : EReal) else 0) 1) :
    (if (0 : EReal) < (n : EReal) then Ideal.div (∑ j, Ideal.div (bs j) (max (cnt j) 1)) (n : EReal)
       else ∑ j, Ideal.div (bs j) (max (cnt j) 1))
      = Ideal.div (∑ q : Q, ((bce (σ q) : ℝ) : EReal) *
          (if (0 : EReal) < (n : EReal)
            then Ideal.div (if valid (σ q) then Ideal.div tot (max (cnt (bin (σ q))) 1) else 0) (n : EReal)
            else (if valid (σ q) then Ideal.div tot (max (cnt (bin (σ q))) 1) else 0))) tot := by
  -- the real bin sizes (at least 1) and the real total (at least 1)
  obtain ⟨m, hm⟩ : ∃ m : J → ℝ, m = fun j =>
      max (∑ p ∈ univ.filter (fun p => valid p ∧ bin p = j), (1 : ℝ)) 1 := ⟨_, rfl⟩
  have hm0 : ∀ j, m j ≠ 0 := fun j => by
    rw [hm]; exact ne_of_gt (lt_of_lt_of_le one_pos (le_max_right _ _))
  have hmE : ∀ j, max (cnt j) 1 = ((m j : ℝ) : EReal) := fun j => by
    rw [hcnt j, hm, ereal_coe_max, ereal_coe_sum, EReal.coe_one]
  obtain ⟨T, hT⟩ : ∃ T : ℝ, T = max (∑ q : Q, if valid (σ q) then (1 : ℝ) else 0) 1 := ⟨_, rfl⟩
  have hT0 : T ≠ 0 := by
    rw [hT]; exact ne_of_gt (lt_of_lt_of_le one_pos (le_max_right _ _))
  have htotE : tot = ((T : ℝ) : EReal) := by
    rw [htot, hT, ereal_coe_max, ereal_coe_sum, EReal.coe_one]
    congr 1
    refine Finset.sum_congr rfl fun q _ => ?_
    split_ifs
    · exact EReal.coe_one.symm
    · exact EReal.coe_zero.symm
  have hbsE : ∀ j, bs j
      = ((∑ p ∈ univ.filter (fun p => valid p ∧ bin p = j), bce p : ℝ) : EReal) := fun j => by
    rw [hbs j, ereal_coe_sum]
  have hS : ∑ j, Ideal.div (bs j) (max (cnt j) 1)
      = ((∑ j, (∑ p ∈ univ.filter (fun p => valid p ∧ bin p = j), bce p) / m j : ℝ) : EReal) := by
    rw [ereal_coe_sum]
    refine Finset.sum_congr rfl fun j _ => ?_
    rw [hbsE j, hmE j, div_real _ _ (hm0 j)]
  have hw : ∀ q, (if valid (σ q) then Ideal.div tot (max (cnt (bin (σ q))) 1) else 0)
      = (((if valid (σ q) then T / m (bin (σ q)) else 0 : ℝ)) : EReal) := by
    intro q
    split_ifs
    · rw [htotE, hmE, div_real _ _ (hm0 _)]
    · exact EReal.coe_zero.symm
  by_cases hn : 0 < n
  · have hn' : (0 : EReal) < (n : EReal) := by exact_mod_cast hn
    simp only [if_pos hn']
    have hR : ∑ q : Q, ((bce (σ q) : ℝ) : EReal) *
          Ideal.div (if valid (σ q) then Ideal.div tot (max (cnt (bin (σ q))) 1) else 0) (n : EReal)
        = ((∑ q : Q, bce (σ q) * ((if valid (σ q) then T / m (bin (σ q)) else 0) / n) : ℝ) : EReal) := by
      rw [ereal_coe_sum]
      refine Finset.sum_congr rfl fun q _ => ?_
      rw [hw q, div_real _ _ (ne_of_gt hn), ← EReal.coe_mul]
    rw [hS, div_real _ _ (ne_of_gt hn), hR, htotE, div_real _ _ hT0]
    exact congrArg _ (real_eq σ valid bin bce m T n hT0)
  · have hn' : ¬ (0 : EReal) < (n : EReal) := by exact_mod_cast hn
    simp only [if_neg hn']
    have hR : ∑ q : Q, ((bce (σ q) : ℝ) : EReal) *
          (if valid (σ q) then Ideal.div tot (max (cnt (bin (σ q))) 1) else 0)
        = ((∑ q : Q, bce (σ q) * (if valid (σ q) then T / m (bin (σ q)) else 0) : ℝ) : EReal) := by
      rw [ereal_coe_sum]
      refine Finset.sum_congr rfl fun q _ => ?_
      rw [hw q, ← EReal.coe_mul]
    rw [hS, hR, htotE, div_real _ _ hT0]
    have h1 := real_eq σ valid bin bce m T 1 hT0
    simp only [div_one] at h1
    exact congrArg _ h1

end Cert.Proof.BinnedMean
-- ==== Proof.Bridge.lean ====
/-
  The two results are one number.

  Over the shared model the kernel's host tail computes S / n (or S), with S the sum over the bins of (loss sum) / max(count, 1),
  and the reference computes (∑ over the elements of loss · weight) / tot with the weight tot / max(count of the element's bin, 1),
  divided by n when n > 0, on the valid elements and 0 elsewhere. The two histograms agree (a filtered count is the sum of the
  0/1 flags); every loss term of a finite logit is a real number; so the regrouping law for real numbers applies: tot ≥ 1
  cancels, and the sum over the elements regroups by bin.
-/
import proofs.«177161_j24644522344916_1_alg».proof.Proof.KTailValue
import proofs.«177161_j24644522344916_1_alg».proof.Proof.RefValue
import proofs.«177161_j24644522344916_1_alg».proof.Proof.LibBinnedMean
import proofs.«177161_j24644522344916_1_alg».proof.Proof.ElemFacts

noncomputable section

namespace Cert.Proof.Bridge

open Finset Idealize.ShloMosaic Idealize.ShloMosaic.ValueIdx Cert.Proof.Spec Cert.Proof.Model Cert.Proof.RefValue

variable (a0 : SE.Idx → EReal) (a1 : SX.Idx → BitVec 32) (lw : SX.Idx → BitVec 1)

/-- The reference's histogram is the kernel's. -/
theorem cnt_eq : cntR a0 a1 lw = cntM a0 a1 lw :=
  funext fun j => (Cert.Proof.BinnedMean.count_eq toSE (valid lw) (binJ a0 a1 lw) j).symm

/-- THE RESULTS AGREE when every logit is a real number. -/
theorem results_eq (hreal : ∀ i, ∃ r : ℝ, a0 i = (r : EReal)) :
    Cert.Proof.KTail.tail (slotArr a0 a1 lw) (lossArr a0 a1 lw) = Cert.ReferenceIdeal.ReadP.val_main_v64 (F := Ideal) a0 a1 lw := by
  funext i
  obtain rfl : i = ix0 := eq_ix0 i
  rw [Cert.Proof.KTail.tail_value, ref_value a0 a1 lw Cert.Proof.ElemFacts.binOf_range]
  simp only [w0R]
  rw [cnt_eq]
  choose r0 hr0 using hreal
  have hb : ∀ p : SE.Idx, ∃ s : ℝ, lossAt a0 a1 lw p = (s : EReal) := fun p => by
    unfold lossAt hotAt
    rw [hr0 p]
    exact Cert.Proof.ElemFacts.bceOf_real _ _ _ _
  choose bce hbce using hb
  obtain ⟨n, hn⟩ := nOf_real (cntM a0 a1 lw)
  have key := Cert.Proof.BinnedMean.binned_mean_eq toSE (valid lw) (binJ a0 a1 lw) bce n (cntM a0 a1 lw) (fun j => rfl)
    (lossM a0 a1 lw) (fun j => Finset.sum_congr rfl fun p _ => hbce p) (totR lw) rfl
  rw [hn]
  simp only [hbce]
  rw [key]

end Cert.Proof.Bridge

end
-- ==== Proof.lean ====
/-
  The gradient-harmonised classification loss, two ways, is one number on the extended reals when the logits are finite.

  Every element (batch entry, channel, pixel) has a logit x, a one-hot target t (the pixel's label where its mask bit is set,
  class 0 elsewhere), a gradient norm |σ(x) − t| whose hundredfold, rounded down and clipped, is its bin 0 … 99, and a loss term
  max(x,0) − x·t + log(1 + e^{−|x|}); an element counts when its pixel's mask bit is set.

  The KERNEL program computes, element by element inside the region, the element's histogram slot (its bin, or the spare
  slot 100 when it does not count) and its loss term times the mask; the host then scatter-adds a 1 and the masked loss
  term into 101-slot histograms, keeps slots 0 … 99, and returns S / n (S when n = 0), where S = ∑ over bins of
  (loss sum) / max(count, 1) and n is the number of non-empty bins.

  The REFERENCE program computes tot = max(number of counting elements, 1), the histogram of counts by scatter-adding the 0/1
  flags at the bins, the per-element weight tot / max(count of its bin, 1) (0 where the element does not count), divided by n
  when n > 0, and returns (∑ over elements of loss · weight) / tot.

  Both histograms are the same function of the arguments; with finite logits every loss term is a real number, tot ≥ 1 cancels,
  and the sum over the elements regroups by bin: the two results are equal. The frames of the two kernel programs are the
  generated ones; the reference's frame is its run with the result dropped; no operation was rewritten by the idealization, so
  nothing is owed for it.
-/
import proofs.«177161_j24644522344916_1_alg».proof.Defs
import proofs.«177161_j24644522344916_1_alg».proof.Proof.Gen.Kernel
import proofs.«177161_j24644522344916_1_alg».proof.Proof.Gen.Kernel.Skeleton
import proofs.«177161_j24644522344916_1_alg».proof.Proof.Gen.Kernel.Launch
import proofs.«177161_j24644522344916_1_alg».proof.Proof.Gen.Kernel.Points
import proofs.«177161_j24644522344916_1_alg».proof.Proof.Gen.Kernel.Frame
import proofs.«177161_j24644522344916_1_alg».proof.Proof.Gen.KernelIdeal
import proofs.«177161_j24644522344916_1_alg».proof.Proof.Gen.KernelIdeal.Skeleton
import proofs.«177161_j24644522344916_1_alg».proof.Proof.Gen.KernelIdeal.Launch
import proofs.«177161_j24644522344916_1_alg».proof.Proof.Gen.KernelIdeal.Points
import proofs.«177161_j24644522344916_1_alg».proof.Proof.Gen.KernelIdeal.Frame
import proofs.«177161_j24644522344916_1_alg».proof.Proof.Gen.ReferenceIdeal
import proofs.«177161_j24644522344916_1_alg».proof.Proof.RefRunPatched
import proofs.«177161_j24644522344916_1_alg».proof.Proof.RefReadPatched
import proofs.«177161_j24644522344916_1_alg».proof.Proof.Gen.Pre_finite_inputs
import proofs.«177161_j24644522344916_1_alg».proof.Proof.KRun
import proofs.«177161_j24644522344916_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments, with finite logits, both idealized programs end with the same result: the
    kernel's run leaves the host tail's function of the slot array and the masked-loss array, the reference's run its composed
    term, and the two are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.Proof.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2]
  exact (Cert.Proof.Bridge.results_eq _ _ _ (Cert.Proof.ElemFacts.real_of_pre _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
